-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x8 : Shape := ⟨2, ![100000, 8]⟩
abbrev S20000x16 : Shape := ⟨2, ![20000, 16]⟩
abbrev S20000x8 : Shape := ⟨2, ![20000, 8]⟩
abbrev S3300000x8 : Shape := ⟨2, ![3300000, 8]⟩
abbrev S1x8 : Shape := ⟨2, ![1, 8]⟩
abbrev S20000 : Shape := ⟨1, ![20000]⟩
abbrev S20000x1 : Shape := ⟨2, ![20000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x8, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x8, .f32⟩
  | .hbm, ⟨74, _⟩ => ⟨S3300000x1, .f32⟩
  | .hbm, ⟨75, _⟩ => ⟨S3300000x8, .f32⟩
  | .hbm, ⟨76, _⟩ => ⟨S3300000x8, .f32⟩
  | .hbm, ⟨77, _⟩ => ⟨S_, .f32⟩
  | .hbm, ⟨78, _⟩ => ⟨S100000x8, .f32⟩
  | .hbm, ⟨79, _⟩ => ⟨S3300000x1, .i32⟩
  | .hbm, ⟨80, _⟩ => ⟨S100000x8, .f32⟩
  | .hbm, ⟨81, _⟩ => ⟨S1x8, .f32⟩
  | .hbm, ⟨82, _⟩ => ⟨S100000x8, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S20000x16, .f32⟩
  | .local _ .vmem, ⟨6, _⟩ => ⟨S20000x16, .f32⟩
  | .local _ .vmem, ⟨7, _⟩ => ⟨S1x16, .f32⟩
  | .local _ .vmem, ⟨8, _⟩ => ⟨S16x8, .f32⟩
  | .local _ .vmem, ⟨9, _⟩ => ⟨S20000x8, .f32⟩
  | .local _ .vmem, ⟨10, _⟩ => ⟨S20000x8, .f32⟩
  | .local _ .vmem, ⟨11, _⟩ => ⟨S20000x8, .f32⟩
  | .local _ .vmem, ⟨12, _⟩ => ⟨S20000x8, .f32⟩
  | .local _ .vmem, ⟨13, _⟩ => ⟨S1x8, .f32⟩
  | .local _ .vmem, ⟨14, _⟩ => ⟨S20000x8, .f32⟩
  | .local _ .vmem, ⟨15, _⟩ => ⟨S20000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S16x8_S16x8_0_0 : ∀ a, (![0, 0] : Fin 2 → Nat) a + S16x8.size a ≤ S16x8.size a
  h_S16x8 : 0 < S16x8.numel
  inb_S20000x8_S20000x8_0_0 : ∀ a, (![0, 0] : Fin 2 → Nat) a + S20000x8.size a ≤ S20000x8.size a
  h_S20000x8 : 0 < S20000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S20000x8_S20000x8 : S20000x8.ShapeCasts S20000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S20000x8 : S1x8.Broadcasts S20000x8
  reduces_S20000x8_S20000 : S20000x8.Reduces [1] S20000
  shapeCasts_S20000_S20000x1 : S20000.ShapeCasts S20000x1
  broadcasts_S20000x1_S20000x8 : S20000x1.Broadcasts S20000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S20000x16_S16x8_S20000x8_1_0_0_1_n_n_wf : DotDims.WF S20000x16 S16x8 S20000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x8.size a ≤ S100000x8.size a
  hwx1_3 : ∀ i : grid1.Coords, EltTy.bits .f32 = 32 ∨ (Rect.block (s := S100000x8) S20000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x8.size a ≤ S100000x8.size a
  hwx2_0 : ∀ i : grid2.Coords, EltTy.bits .f32 = 32 ∨ (Rect.block (s := S100000x8) S20000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x8.size a ≤ S100000x8.size a
  hwx2_2 : ∀ i : grid2.Coords, EltTy.bits .f32 = 32 ∨ (Rect.block (s := S100000x8) S20000x8.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S20000x16_S16x8_S20000x8_1_0_0_1_n_n : DotDims S20000x16 S16x8 S20000x8 where
  lhsContracting := [1]
  rhsContracting := [0]
  lhsNonContracting := [0]
  rhsNonContracting := [1]
  lhsBatch := []
  rhsBatch := []
  wf := dot_S20000x16_S16x8_S20000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S20000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S20000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S20000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x8, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x8, .f32⟩
  | .hbm, ⟨79, _⟩ => ⟨S3300000x1, .f32⟩
  | .hbm, ⟨80, _⟩ => ⟨S3300000x8, .f32⟩
  | .hbm, ⟨81, _⟩ => ⟨S3300000x8, .f32⟩
  | .hbm, ⟨82, _⟩ => ⟨S_, .f32⟩
  | .hbm, ⟨83, _⟩ => ⟨S100000x8, .f32⟩
  | .hbm, ⟨84, _⟩ => ⟨S3300000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x8, .f32⟩
  | .hbm, ⟨96, _⟩ => ⟨S100000x8, .f32⟩
  | .hbm, ⟨97, _⟩ => ⟨S100000x8, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x8, .f32⟩
  | .hbm, ⟨103, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.KernelRun.lean ====
/-
  The kernel's run with its result named.

  @main is eight segments: three stretches of host operations, the first region, a stretch, the second region, a
  stretch, the third region.  The contents of the TensorCore's buffers at each boundary are a fold from the launch
  memory: a stretch applies its operations, a region leaves its arrays at what its write-backs leave and every other
  buffer as entered.  Every weakly fair execution terminates in a state whose unscoped buffers hold the last boundary's
  contents; so the result buffer ends at the last boundary's contents at its reference, and the six arguments, which
  nothing writes, end as launched.
-/
import proofs.«176402_j3642132267062_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the statement below is matched against the launch theorem's conclusion only up to the unfolding of plain definitions
set_option backward.isDefEq.respectTransparency.types false in
/-- Every weakly fair execution of @main terminates, nothing faulting, with the result buffer at the last boundary's
    contents `W8` and the argument arrays as launched. -/
theorem run_named : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.NamedRun

end
-- ==== Proof.GlueKernel.lean ====
/-
  The neighbourhood sums of the graph convolution, as the host spells them in `KernelIdeal`.

  From the edge list `e : [2, E]` the host builds, with self loops appended, the sources `src` and targets `dst` of the
  `E + n` messages; the degree of a node is the number of messages that reach it, `dinv` its inverse square root (zero
  where the degree is not positive), and a message's weight is `dinv src · dinv dst`.  A layer's neighbourhood sum
  gathers the rows of `h` at the sources (a negative index wrapped by `n`), scales each by its message's weight and
  scatter-adds them into a zero array at the targets.  These are the host's own operations, named here so that a whole
  program's result is a short composition; nothing below is evaluated.
-/
import proofs.«176402_j3642132267062_1_alg».proof.KernelIdeal

noncomputable section

namespace Cert.KernelIdeal.Glue

open Cert.KernelIdeal Idealize.ShloMosaic Idealize.ShloMosaic.TcCoe

variable {F : FTy → Type} [FloatOps F] [Facts]
open Facts₀ Facts

/-- The messages' sources: row 0 of the edge list, then every node once. -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The messages' targets: row 1 of the edge list, then every node once. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A list of node numbers as an index column. -/
def col (x : (⟨S3300000, .i32⟩ : BufTy).Contents (Elt F)) : (⟨S3300000x1, .i32⟩ : BufTy).Contents (Elt F) :=
  broadcastInDim S3300000x1 ![0] bcast_S3300000_S3300000x1_0 x

/-- A negative node number wrapped around by the number of nodes. -/
def wrap (x : (⟨S3300000, .i32⟩ : BufTy).Contents (Elt F)) : (⟨S3300000, .i32⟩ : BufTy).Contents (Elt F) :=
  select (cmpi .slt x (broadcastInDim S3300000 ![] bcast_S_S3300000 (constantI S_ 32 0#32))) (addi x (broadcastInDim S3300000 ![] bcast_S_S3300000 (constantI S_ 32 100000#32))) x

/-- The number of messages reaching each node. -/
def deg (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant (F := F) S_ .f32 0x00000000#32)) (col (dst e)) (broadcastInDim S3300000 ![] bcast_S_S3300000 (constant (F := F) S_ .f32 0x3F800000#32))

/-- The inverse square root of the degree, zero where the degree is not positive. -/
def dinv (e : (⟨S2x3200000, .i32⟩ : BufTy).Contents (Elt F)) : (⟨S100000, .f32⟩ : BufTy).Contents (Elt F) :=
  select (cmpf (F := F) .ogt (deg e) (broadcastInDim S100000 ![] bcast_S_S100000 (constant (F := F) S_ .f32 0x00000000#32))) (Host.rsqrt (deg e)) (broadcastInDim S100000 ![] bcast_S_S100000 (id (constant (F := F) S_ .f32 0x00000000#32)))

/-- The weight of each message. -/
def norm (e : (⟨S2x3200000, .i32⟩ : BufTy).Contents (Elt F)) : (⟨S3300000, .f32⟩ : BufTy).Contents (Elt F) :=
  mulf (Host.gather gather_S100000_S3300000x1_S3300000_n_0_n_n_0_1_1 (dinv e) (col (wrap (src e)))) (Host.gather gather_S100000_S3300000x1_S3300000_n_0_n_n_0_1_1 (dinv e) (col (wrap (dst e))))

/-- The neighbourhood sum of a 16-wide layer. -/
def agg16 (e : (⟨S2x3200000, .i32⟩ : BufTy).Contents (Elt F)) (h : (⟨S100000x16, .f32⟩ : BufTy).Contents (Elt F)) :
    (⟨S100000x16, .f32⟩ : BufTy).Contents (Elt F) :=
  Host.scatterAdd scatter_S100000x16_S3300000x1_S3300000x16_1_0_0_1 (broadcastInDim S100000x16 ![] bcast_S_S100000x16 (constant (F := F) S_ .f32 0x00000000#32)) (col (dst e)) (mulf (Host.gather gather_S100000x16_S3300000x1_S3300000x16_1_0_n_n_0_1_116 h (col (wrap (src e)))) (broadcastInDim S3300000x16 ![0, 1] bcast_S3300000x1_S3300000x16_0_1 (broadcastInDim S3300000x1 ![0] bcast_S3300000_S3300000x1_0 (norm e))))

/-- The neighbourhood sum of an 8-wide layer. -/
def agg8 (e : (⟨S2x3200000, .i32⟩ : BufTy).Contents (Elt F)) (h : (⟨S100000x8, .f32⟩ : BufTy).Contents (Elt F)) :
    (⟨S100000x8, .f32⟩ : BufTy).Contents (Elt F) :=
  Host.scatterAdd scatter_S100000x8_S3300000x1_S3300000x8_1_0_0_1 (broadcastInDim S100000x8 ![] bcast_S_S100000x8 (constant (F := F) S_ .f32 0x00000000#32)) (col (dst e)) (mulf (Host.gather gather_S100000x8_S3300000x1_S3300000x8_1_0_n_n_0_1_18 h (col (wrap (src e)))) (broadcastInDim S3300000x8 ![0, 1] bcast_S3300000x1_S3300000x8_0_1 (broadcastInDim S3300000x1 ![0] bcast_S3300000_S3300000x1_0 (norm e))))

end Cert.KernelIdeal.Glue

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibMatProd.lean ====
/-
  The matrix product as one function of two arrays, over the extended reals.

  `matProd a w` at `(p, q)` is the sum over `k` of `a (p, k) * w (k, q)`. Addition of extended reals is commutative
  and associative, so the sum needs no order and no blocking: a product computed row block by row block and a product
  computed at once are the same array. Both a kernel's matmul into the zero accumulator and a host `dot_general`, with
  the plain dimension numbers, are this function; and a change of float format on the way in is the identity.
-/
import Idealize.ShloMosaic.PureOps.Ideal
import Idealize.ShloMosaic.PureOps.Ideal.Laws
import Idealize.ShloMosaic.Lib.ValueIdx
import proofs.«176402_j3642132267062_1_alg».proof.Proof.LibPlainDot

noncomputable section

namespace Idealize.ShloMosaic.MatProd

open Idealize.ShloMosaic Idealize.ShloMosaic.ValueIdx

/-- The product of an `M×K` array with a `K×N` array, entry by entry. -/
def matProd {M K N : ℕ} {φ₁ φ₂ : FTy} (a : FVec Ideal ⟨2, ![M, K]⟩ φ₁) (w : FVec Ideal ⟨2, ![K, N]⟩ φ₂) :
    FVec Ideal ⟨2, ![M, N]⟩ .f32 :=
  fun i => ∑ k : Fin K, a (ix2 (i 0) k) * w (ix2 k (i 1))

/-- A kernel's matmul into the zero accumulator, read at the entry `(p, q)`. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂)
    (y : (⟨2, ![M, N]⟩ : Shape).Idx) (p : Fin M) (q : Fin N) (hy : y = ix2 p q) :
    FloatOps.matmul d prec lhs rhs (constant ⟨2, ![M, N]⟩ .f32 0x00000000#32) y
      = ∑ k : Fin K, lhs (ix2 p k) * rhs (ix2 k q) := by
  subst hy
  exact PlainDot.matmul_zero_apply d hd prec lhs rhs p q

/-- A host `dot_general` with the plain dimension numbers is the matrix product. -/
theorem dotGeneral_eq_matProd {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) :
    FloatOps.dotGeneral d prec sched lhs rhs = matProd lhs rhs := by
  funext j
  obtain ⟨p, q, rfl⟩ : ∃ (p : Fin M) (q : Fin N), j = ix2 p q := ⟨j 0, j 1, eq_ix2 j⟩
  exact PlainDot.dotGeneral_apply d hd prec sched lhs rhs p q

/-- Narrowing both operands' float format first changes nothing: at the ideal values a format change is the identity. -/
theorem matProd_truncf {M K N : ℕ} {φ₁ φ₂ ψ₁ ψ₂ : FTy} (a : FVec Ideal ⟨2, ![M, K]⟩ φ₁) (w : FVec Ideal ⟨2, ![K, N]⟩ φ₂)
    (h₁ : ψ₁.bits < φ₁.bits) (h₂ : ψ₂.bits < φ₂.bits) :
    matProd (truncf ψ₁ a h₁) (truncf ψ₂ w h₂) = matProd a w := rfl

end Idealize.ShloMosaic.MatProd

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibGraphConvLayers.lean ====
/-
  The dense layers of a two-layer graph convolution, entry by entry over the extended reals.

  Between the neighbourhood sums a graph convolution applies, row by row, three dense maps:

    * the feature transform `x ↦ x · w`: at `(p, q)` the sum over `k` of `x (p, k) * w (k, q)`;
    * the hidden layer `a ↦ relu (a + b) · w`: the same sum with `max (a (p, k) + b k) 0` in place of `x (p, k)`;
    * the read-out `a ↦ log_softmax (a + b)` along each row: with `z k = a (p, k) + b k` and `μ` the maximum of the
      row's `z`, the entry at `(p, q)` is `(z q - μ) - log (∑ k, exp (z k - μ))`.

  Each entry depends on ONE row of the row-indexed operand only, so any tiling of the rows computes the same array.
  The zero of `relu` and the starting value of the row maximum are kept as the float words `0x00000000` and
  `0xFF800000` read at the ideal values: the same words stand on both sides of every comparison and are never evaluated,
  except that the row sum's starting word `0x00000000` is the number zero.

  The second half states the host's spelling of each map (a `dot_general`; `broadcast_in_dim`s of the bias,
  `maximum` with a broadcast zero, a `dot_general`; reductions kept as `[m, 1]` columns and spread back) as these
  functions of whole arrays.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«176402_j3642132267062_1_alg».proof.Proof.LibMatProd
import proofs.«176402_j3642132267062_1_alg».proof.Proof.LibDense
import proofs.«176402_j3642132267062_1_alg».proof.Proof.LibRowReduce
import proofs.«176402_j3642132267062_1_alg».proof.Proof.LibRegionBlockSpread

noncomputable section

namespace GraphConvLayers

open Idealize.ShloMosaic Idealize.ShloMosaic.ValueIdx

/-- The float word zero, read at the ideal values. -/
abbrev zeroWord : EReal := Ideal.ofBits .f32 0x00000000#32
/-- The float word the row maximum starts from, read at the ideal values. -/
abbrev lowWord : EReal := Ideal.ofBits .f32 0xFF800000#32

/-- `relu (a + b)`, the bias `b` added along each row. -/
def biasRelu {M K : ℕ} (a : FVec Ideal ⟨2, ![M, K]⟩ .f32) (b : FVec Ideal ⟨1, ![K]⟩ .f32) : FVec Ideal ⟨2, ![M, K]⟩ .f32 :=
  fun i => max (a i + b (ix1 (i 1))) zeroWord

theorem biasRelu_apply {M K : ℕ} (a : FVec Ideal ⟨2, ![M, K]⟩ .f32) (b : FVec Ideal ⟨1, ![K]⟩ .f32) (p : Fin M) (k : Fin K) :
    biasRelu a b (ix2 p k) = max (a (ix2 p k) + b (ix1 k)) zeroWord := rfl

/-- The hidden layer `relu (a + b) · w`. -/
def hidden {M K N : ℕ} (a : FVec Ideal ⟨2, ![M, K]⟩ .f32) (b : FVec Ideal ⟨1, ![K]⟩ .f32) (w : FVec Ideal ⟨2, ![K, N]⟩ .f32) :
    FVec Ideal ⟨2, ![M, N]⟩ .f32 :=
  MatProd.matProd (biasRelu a b) w

theorem hidden_apply {M K N : ℕ} (a : FVec Ideal ⟨2, ![M, K]⟩ .f32) (b : FVec Ideal ⟨1, ![K]⟩ .f32)
    (w : FVec Ideal ⟨2, ![K, N]⟩ .f32) (p : Fin M) (q : Fin N) :
    hidden a b w (ix2 p q) = ∑ k : Fin K, max (a (ix2 p k) + b (ix1 k)) zeroWord * w (ix2 k q) := rfl

/-- Row `p` of `a + b`. -/
def biasedRow {M N : ℕ} (a : FVec Ideal ⟨2, ![M, N]⟩ .f32) (b : FVec Ideal ⟨1, ![N]⟩ .f32) (p : Fin M) : Fin N → EReal :=
  fun k => a (ix2 p k) + b (ix1 k)

/-- The maximum of a row, folded from the starting word. -/
def rowMax {N : ℕ} (z : Fin N → EReal) : EReal := (Finset.univ : Finset (Fin N)).fold max lowWord z

/-- `log_softmax` of one row at one position. -/
def rowLogSoftmax {N : ℕ} (z : Fin N → EReal) (q : Fin N) : EReal :=
  (z q - rowMax z) - Ideal.log (∑ k : Fin N, Ideal.exp (z k - rowMax z))

/-- The read-out `log_softmax (a + b)` along each row. -/
def biasLogSoftmax {M N : ℕ} (a : FVec Ideal ⟨2, ![M, N]⟩ .f32) (b : FVec Ideal ⟨1, ![N]⟩ .f32) : FVec Ideal ⟨2, ![M, N]⟩ .f32 :=
  fun i => rowLogSoftmax (biasedRow a b (i 0)) (i 1)

theorem biasLogSoftmax_apply {M N : ℕ} (a : FVec Ideal ⟨2, ![M, N]⟩ .f32) (b : FVec Ideal ⟨1, ![N]⟩ .f32) (p : Fin M) (q : Fin N) :
    biasLogSoftmax a b (ix2 p q) = rowLogSoftmax (biasedRow a b p) q := rfl

/-- Taking the maximum with the starting word once more changes nothing: the fold already lies above it. -/
theorem max_low_rowMax {N : ℕ} (z : Fin N → EReal) : max lowWord (rowMax z) = rowMax z :=
  max_eq_right ((Finset.le_fold_max lowWord).mpr (Or.inl le_rfl))

/-- A vector reshaped to one row and read back along that row is the vector. -/
theorem rowOf_cast {K : ℕ} (b : FVec Ideal ⟨1, ![K]⟩ .f32) (h : (⟨1, ![K]⟩ : Shape).ShapeCasts ⟨2, ![1, K]⟩) :
    (fun j : (⟨1, ![K]⟩ : Shape).Idx => shapeCast ⟨2, ![1, K]⟩ b h (ix2 (0 : Fin 1) (j 0 : Fin K))) = b := by
  funext j
  obtain ⟨k, rfl⟩ : ∃ k : Fin K, j = ix1 k := ⟨j 0, eq_ix1 j⟩
  exact shapeCast_a_1a_apply b h (0 : Fin 1) k

/-! ## The host's spelling of the three maps -/

/-- The host's hidden layer: the bias spread by two `broadcast_in_dim`s, `maximum` with a broadcast zero, a
    `dot_general` with the plain dimension numbers. -/
theorem host_hidden {M K N : ℕ} (d : DotDims ⟨2, ![M, K]⟩ ⟨2, ![K, N]⟩ ⟨2, ![M, N]⟩) (hd : d = DotDims.plain M K N)
    (prec : Option ContractPrecision) (sched : HostSchedule)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (a : FVec Ideal ⟨2, ![M, K]⟩ .f32) (b : FVec Ideal ⟨1, ![K]⟩ .f32) (w : FVec Ideal ⟨2, ![K, N]⟩ .f32) :
    FloatOps.dotGeneral d prec sched
        (maximumf (addf a (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32))) w
      = hidden a b w := by
  rw [MatProd.dotGeneral_eq_matProd d hd]
  unfold hidden
  refine congrArg (fun v => MatProd.matProd v w) (funext fun i => ?_)
  obtain ⟨p, k, rfl⟩ : ∃ (p : Fin M) (k : Fin K), i = ix2 p k := ⟨i 0, i 1, eq_ix2 i⟩
  rw [biasRelu_apply, maximumf_apply, addf_apply, DenseLayer.inDimRow_apply]
  rfl

/-- The host's read-out: the bias spread by two `broadcast_in_dim`s; the row maximum by a `reduce` from the starting
    word, once more `maximum` with that word, kept as a column and spread back; `exponential`; the row sum by a
    `reduce` from zero, kept as a column, `log`, spread back. -/
theorem host_biasLogSoftmax {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (hr : (⟨2, ![M, N]⟩ : Shape).ReducesTo [1] ⟨1, ![M]⟩) (hr' : (⟨2, ![M, N]⟩ : Shape).Reduces [1] ⟨1, ![M]⟩)
    (hu : 0 < (⟨0, ![]⟩ : Shape).numel)
    (hb0 : (⟨0, ![]⟩ : Shape).BroadcastsInDim ⟨1, ![M]⟩ ![])
    (hc : (⟨1, ![M]⟩ : Shape).BroadcastsInDim ⟨2, ![M, 1]⟩ ![0])
    (hs : (⟨2, ![M, 1]⟩ : Shape).BroadcastsInDim ⟨2, ![M, N]⟩ ![0, 1])
    (a : FVec Ideal ⟨2, ![M, N]⟩ .f32) (b : FVec Ideal ⟨1, ![N]⟩ .f32) :
    let z : FVec Ideal ⟨2, ![M, N]⟩ .f32 :=
        addf a (broadcastInDim ⟨2, ![M, N]⟩ ![0, 1] h2 (broadcastInDim ⟨2, ![1, N]⟩ ![1] h1 b))
    let sh : FVec Ideal ⟨2, ![M, N]⟩ .f32 :=
        subf z (broadcastInDim ⟨2, ![M, N]⟩ ![0, 1] hs (broadcastInDim ⟨2, ![M, 1]⟩ ![0] hc
          (maximumf (broadcastInDim ⟨1, ![M]⟩ ![] hb0 (constant (F := Ideal) ⟨0, ![]⟩ .f32 0xFF800000#32))
            (Host.reduce FloatOps.maximumf z (constant (F := Ideal) ⟨0, ![]⟩ .f32 0xFF800000#32) hr hu))))
    subf sh (broadcastInDim ⟨2, ![M, N]⟩ ![0, 1] hs (Host.log (broadcastInDim ⟨2, ![M, 1]⟩ ![0] hc
        (Host.reduceAdd (Host.exp sh) (constant (F := Ideal) ⟨0, ![]⟩ .f32 0x00000000#32) hr hu))))
      = biasLogSoftmax a b := by
  intro z sh
  have hz : ∀ (p : Fin M) (k : Fin N), z (ix2 p k) = biasedRow a b p k := fun p k => by
    show a (ix2 p k) + _ = _
    rw [DenseLayer.inDimRow_apply]; rfl
  have hsh : ∀ (p : Fin M) (k : Fin N), sh (ix2 p k) = biasedRow a b p k - rowMax (biasedRow a b p) := fun p k => by
    show z (ix2 p k) - _ = _
    rw [KeepDims.broadcastInDim_a1_ab_apply, KeepDims.broadcastInDim_a_a1_apply, maximumf_apply,
      RowReduce.hostReduce_maximumf_row z _ hr hr' hu p, hz]
    have e : (fun k => z (ix2 p k)) = biasedRow a b p := funext fun k => hz p k
    rw [e]
    exact congrArg (fun t => biasedRow a b p k - t) (max_low_rowMax (biasedRow a b p))
  funext i
  obtain ⟨p, q, rfl⟩ : ∃ (p : Fin M) (q : Fin N), i = ix2 p q := ⟨i 0, i 1, eq_ix2 i⟩
  rw [biasLogSoftmax_apply]
  show sh (ix2 p q) - _ = _
  rw [KeepDims.broadcastInDim_a1_ab_apply]
  have hlog : ∀ (v : FVec Ideal ⟨2, ![M, 1]⟩ .f32) (j : (⟨2, ![M, 1]⟩ : Shape).Idx), Host.log v j = Ideal.log (v j) :=
    fun _ _ => rfl
  rw [hlog, KeepDims.broadcastInDim_a_a1_apply, RowReduce.hostReduceAdd_row _ _ hr hr' hu p, hsh]
  have e : (fun k => Host.exp sh (ix2 p k)) = fun k => Ideal.exp (biasedRow a b p k - rowMax (biasedRow a b p)) :=
    funext fun k => congrArg Ideal.exp (hsh p k)
  unfold rowLogSoftmax
  refine congrArg (fun t => (biasedRow a b p q - rowMax (biasedRow a b p)) - Ideal.log t) ?_
  rw [show (∑ k : Fin N, Host.exp sh (ix2 p k)) = ∑ k : Fin N, Ideal.exp (biasedRow a b p k - rowMax (biasedRow a b p)) from
    Finset.sum_congr rfl fun k _ => congrFun e k]
  show Ideal.ofBits .f32 0x00000000#32 + _ = _
  rw [Ideal.ofBits_zero_f32, zero_add]

end GraphConvLayers

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Payloads.lean ====
/-
  What each kernel body stores, entry by entry.

  Every body loads a block of rows of its first operand whole, the small operands whole, and stores one value:

    * body 0 the product of its row block with the weight matrix: the narrowing of both operands to a shorter float
      format is the identity at the ideal values, and the matrix unit's product into a zero accumulator is the plain sum;
    * body 1 the hidden layer `relu (rows + bias row) · w`, the bias a `[1, K]` row broadcast over the block's rows;
    * body 2 `log_softmax (rows + bias row)` along each row: the row maximum and the row sum are lane reductions kept as
      `[m, 1]` columns and broadcast back over the row.

  So the entry at `(p, q)` of each stored value is the layer's formula over row `p` of the block alone.
-/
import proofs.«176402_j3642132267062_1_alg».proof.Proof.Gen.KernelIdeal.Skeleton
import proofs.«176402_j3642132267062_1_alg».proof.Proof.LibGraphConvLayers
import proofs.«176402_j3642132267062_1_alg».proof.Proof.LibColumns

noncomputable section

namespace Cert.KernelIdeal.BodyValue

open Cert.KernelIdeal Cert.KernelIdeal.Gen Idealize.ShloMosaic Idealize.ShloMosaic.ValueIdx GraphConvLayers

/-- Body 0 stores, at `(p, q)`, the sum over `k` of the row block at `(p, k)` times the weights at `(k, q)`. -/
theorem pay0_apply (x0 : Vec Ideal S10000x128 .f32) (x1 : Vec Ideal S128x16 .f32) (p : Fin 10000) (q : Fin 16) :
    k0_pay1 (F := Ideal) x0 x1 (ix2 p q) = ∑ k : Fin 128, x0 (ix2 p k) * x1 (ix2 k q) := by
  unfold k0_pay1
  exact MatProd.matmul_zero_at _ rfl none _ _ (ix2 p q) p q rfl

/-- Body 1 stores, at `(p, q)`, the hidden layer's sum over row `p` of the block, the bias read off the one row of
    its `[1, 16]` operand. -/
theorem pay1_apply (x0 : Vec Ideal S20000x16 .f32) (x1 : Vec Ideal S1x16 .f32) (x2 : Vec Ideal S16x8 .f32)
    (p : Fin 20000) (q : Fin 8) :
    k1_pay1 (F := Ideal) x0 x1 x2 (ix2 p q)
      = ∑ k : Fin 16, max (x0 (ix2 p k) + x1 (ix2 (0 : Fin 1) k)) zeroWord * x2 (ix2 k q) := by
  unfold k1_pay1
  refine (MatProd.matmul_zero_at _ rfl none _ _ (ix2 p q) p q rfl).trans ?_
  refine Finset.sum_congr rfl fun k _ => ?_
  refine congrArg (fun t => t * x2 (ix2 k q)) ?_
  show max (shapeCast S20000x16 x0 shapeCasts_S20000x16_S20000x16 (ix2 p k)
      + broadcastTo S20000x16 (shapeCast S1x16 x1 shapeCasts_S1x16_S1x16) broadcasts_S1x16_S20000x16 (ix2 p k)) _ = _
  rw [shapeCast_self, shapeCast_self, broadcastTo_1b_ab_apply]
  rfl

/-- Body 2 stores, at `(p, q)`, `log_softmax` of row `p` of the block plus the bias row, at position `q`. -/
theorem pay2_apply (x0 : Vec Ideal S20000x8 .f32) (x1 : Vec Ideal S1x8 .f32) (p : Fin 20000) (q : Fin 8) :
    k2_pay1 (F := Ideal) x0 x1 (ix2 p q)
      = rowLogSoftmax (fun k : Fin 8 => x0 (ix2 p k) + x1 (ix2 (0 : Fin 1) k)) q := by
  unfold k2_pay1
  show (fun (z : FVec Ideal S20000x8 .f32) =>
      (fun (sh : FVec Ideal S20000x8 .f32) =>
        subf sh (broadcastTo S20000x8 (log (shapeCast S20000x1
          (multiReduction .add [1] S20000 (exp sh) 0x00000000#32 reduces_S20000x8_S20000 (.inl rfl) rfl)
          shapeCasts_S20000_S20000x1)) broadcasts_S20000x1_S20000x8) (ix2 p q))
        (subf z (broadcastTo S20000x8 (shapeCast S20000x1
          (multiReduction .maximumf [1] S20000 z 0xFF800000#32 reduces_S20000x8_S20000 (.inl rfl) rfl)
          shapeCasts_S20000_S20000x1) broadcasts_S20000x1_S20000x8)))
      (addf (shapeCast S20000x8 (x0 : FVec Ideal S20000x8 .f32) shapeCasts_S20000x8_S20000x8)
        (broadcastTo S20000x8 (shapeCast S1x8 (x1 : FVec Ideal S1x8 .f32) shapeCasts_S1x8_S1x8) broadcasts_S1x8_S20000x8)) = _
  generalize hz : addf (F := Ideal) (shapeCast S20000x8 (x0 : FVec Ideal S20000x8 .f32) shapeCasts_S20000x8_S20000x8)
      (broadcastTo S20000x8 (shapeCast S1x8 (x1 : FVec Ideal S1x8 .f32) shapeCasts_S1x8_S1x8) broadcasts_S1x8_S20000x8) = z
  have hzr : ∀ (r : Fin 20000) (k : Fin 8), z (ix2 r k) = x0 (ix2 r k) + x1 (ix2 (0 : Fin 1) k) := fun r k => by
    rw [← hz]
    show shapeCast S20000x8 (x0 : FVec Ideal S20000x8 .f32) shapeCasts_S20000x8_S20000x8 (ix2 r k)
      + broadcastTo S20000x8 (shapeCast S1x8 (x1 : FVec Ideal S1x8 .f32) shapeCasts_S1x8_S1x8) broadcasts_S1x8_S20000x8 (ix2 r k) = _
    rw [shapeCast_self, shapeCast_self, broadcastTo_1b_ab_apply]
  dsimp only
  generalize hsh : subf (F := Ideal) z (broadcastTo S20000x8 (shapeCast S20000x1
      (multiReduction .maximumf [1] S20000 z 0xFF800000#32 reduces_S20000x8_S20000 (.inl rfl) rfl)
      shapeCasts_S20000_S20000x1) broadcasts_S20000x1_S20000x8) = sh
  have hshr : ∀ (r : Fin 20000) (k : Fin 8), sh (ix2 r k)
      = (x0 (ix2 r k) + x1 (ix2 (0 : Fin 1) k)) - rowMax (fun k : Fin 8 => x0 (ix2 r k) + x1 (ix2 (0 : Fin 1) k)) := fun r k => by
    rw [← hsh]
    show z (ix2 r k) - broadcastTo S20000x8 _ broadcasts_S20000x1_S20000x8 (ix2 r k) = _
    rw [broadcastTo_a1_ab_apply, RowReduce.shapeCast_a_a1_apply,
      RowReduce.multiReduction_maximumf_row z 0xFF800000#32 reduces_S20000x8_S20000 (.inl rfl) rfl r, hzr]
    have e : (fun k => z (ix2 r k)) = fun k : Fin 8 => x0 (ix2 r k) + x1 (ix2 (0 : Fin 1) k) := funext fun k => hzr r k
    rw [e]
    rfl
  show sh (ix2 p q) - broadcastTo S20000x8 _ broadcasts_S20000x1_S20000x8 (ix2 p q) = _
  rw [broadcastTo_a1_ab_apply]
  have hlog : ∀ (v : FVec Ideal S20000x1 .f32) (j : S20000x1.Idx), log v j = Ideal.log (v j) := fun _ _ => rfl
  rw [hlog, RowReduce.shapeCast_a_a1_apply,
    RowReduce.multiReduction_add_row (exp sh) 0x00000000#32 reduces_S20000x8_S20000 (.inl rfl) rfl p, hshr]
  unfold rowLogSoftmax
  refine congrArg (fun t : EReal => (x0 (ix2 p q) + x1 (ix2 (0 : Fin 1) q)
    - rowMax (fun k : Fin 8 => x0 (ix2 p k) + x1 (ix2 (0 : Fin 1) k))) - Ideal.log t) ?_
  exact Finset.sum_congr rfl fun k _ => congrArg Ideal.exp (hshr p k)

end Cert.KernelIdeal.BodyValue

end
-- ==== Proof.Region0.lean ====
/-
  The first region's array: the feature transform `x · w1` of the whole arrays.

  The grid has 10 points; point `t` reads rows `10000 t … 10000 t + 9999` of `x` and all of `w1`, and writes the same
  rows of the result.  An entry of the product depends on one row of `x` only, so the block point `t` writes back is
  the restriction of `x · w1` to its rows; the ten blocks cover the `100000` rows, so the array ends holding `x · w1`,
  whatever the contents `V` of the buffers when the region is entered.
-/
import proofs.«176402_j3642132267062_1_alg».proof.Proof.Gen.KernelIdeal.Frame
import proofs.«176402_j3642132267062_1_alg».proof.Proof.Payloads

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem GraphConvLayers
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the 10 points: the row-blocked windows sit at block `(t, 0)`, the weights at `(0, 0)`. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Over variables: the stored value at `y = (p, q)` is the whole product at `i = (r, q)` as soon as row `p` of the block
    is row `r` of the array and the weights are the whole weight matrix. -/
theorem rows0 (x0 : Vec Ideal S10000x128 .f32) (x1 : Vec Ideal S128x16 .f32)
    (X : FVec Ideal S100000x128 .f32) (W : FVec Ideal S128x16 .f32) (y : S10000x16.Idx) (i : S100000x16.Idx)
    (p : Fin 10000) (q : Fin 16) (r : Fin 100000) (hy : y = ix2 p q) (hi : i = ix2 r q)
    (hx0 : ∀ k : Fin 128, x0 (ix2 p k) = X (ix2 r k))
    (hx1 : ∀ (k : Fin 128) (s : Fin 16), x1 (ix2 k s) = W (ix2 k s)) :
    k0_pay1 (F := Ideal) x0 x1 y = MatProd.matProd (φ₁ := .f32) (φ₂ := .f32) X W i := by
  subst hy hi
  exact (BodyValue.pay0_apply x0 x1 p q).trans
    (Finset.sum_congr rfl fun k _ => congrArg₂ (fun a b : EReal => a * b) (hx0 k) (hx1 k q))

/-- What point `t` writes back is block `t` of `x · w1` of the arrays as the region finds them. -/
theorem flushed0 (c : Dev nD) (t : Fin cfg0.N) :
    (dat0 V c).flushed 2 t = ((cfg0.win 2).blk t).view.read (Elt Ideal)
      (MatProd.matProd (φ₁ := .f32) (φ₂ := .f32) (V c main_arg0 : FVec Ideal S100000x128 .f32) (V c main_arg2 : FVec Ideal S128x16 .f32)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x16) offsets_zero]
  obtain ⟨e0, e1, e2, e3, e4, e5⟩ := index0 t
  funext j
  refine rows0 _ _ _ _ j _ (j 0) (j 1) (((cfg0.win 2).blk t).view.emb j 0) (eq_ix2 j) ?_ ?_ ?_
  · refine (eq_ix2 _).trans (congrArg (ix2 _) (Fin.ext ?_))
    show win0_2.index t (1 : Fin 2) * 16 + 1 * (j 1).val = (j 1).val
    omega
  · intro k
    show V c main_arg0 (((cfg0.win 0).blk t).view.emb (ix2 (j 0 : Fin 10000) k)) = V c main_arg0 _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · intro k s
    show V c main_arg2 (((cfg0.win 1).blk t).view.emb (ix2 k s)) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 16 + 1 * s.val = s.val; omega

/-- An index of the result is in point `t`'s block iff each coordinate is in the block's range on its axis. -/
theorem mem_block0 (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v30).slice (win0_2.rect t)).set ↔ _
  rw [View.set_slice_whole, Rect.mem_set_unit]
  exact Iff.rfl

/-- Every block row of the result is some point's. -/
theorem onto0 : ∀ q0 : Fin 10, ∃ t : Fin cfg0.N, win0_2.index t = ![q0.val, 0] :=
  (by decide +kernel : ∀ q0 : Fin 10, ∃ t : Fin grid0.N, win0_2.index t = ![q0.val, 0])

/-- The ten blocks cover the result: row `r` lies in the block of point `r / 10000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The first region's result array after its run: `x · w1` of the arrays as the region finds them. -/
theorem final0 (c : Dev nD) :
    (dat0 V c).arrAt 2 cfg0.N
      = MatProd.matProd (φ₁ := .f32) (φ₂ := .f32) (V c main_arg0 : FVec Ideal S100000x128 .f32) (V c main_arg2 : FVec Ideal S128x16 .f32) :=
  (dat0 V c).arrAt_eq_of_cover 2 _ (fun t _ => flushed0 V c t) cover0

end Cert.KernelIdeal.RegionValue

end
-- ==== Proof.Region1.lean ====
/-
  The second region's array: the hidden layer `relu (a + b1) · w2` of the whole arrays.

  The grid has 5 points; point `t` reads rows `20000 t … 20000 t + 19999` of the first neighbourhood sum `a`, the bias
  row and the weights whole, and writes the same rows of the result.  An entry of the hidden layer depends on one row
  of `a` only, so the block point `t` writes back is the restriction of the whole layer to its rows; the five blocks
  cover the `100000` rows.
-/
import proofs.«176402_j3642132267062_1_alg».proof.Proof.Gen.KernelIdeal.Frame
import proofs.«176402_j3642132267062_1_alg».proof.Proof.Payloads
import proofs.«176402_j3642132267062_1_alg».proof.Proof.Region0

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem GraphConvLayers
open Idealize.ShloMosaic.Pipeline (Dat Cfg Window)

variable (V : (c : Dev nD) → (b : Ref sig .tc) → Buf (Elt Ideal) ((c : Thread nD τ).loc b))

/-- The printed index maps over the 5 points: the row-blocked windows sit at block `(t, 0)`, the bias row and the weights
    at `(0, 0)`. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Over variables: the stored value at `y = (p, q)` is the whole hidden layer at `i = (r, q)` as soon as row `p` of the
    block is row `r` of the array, and the bias row and the weights are the whole ones. -/
theorem rows1 (x0 : Vec Ideal S20000x16 .f32) (x1 : Vec Ideal S1x16 .f32) (x2 : Vec Ideal S16x8 .f32)
    (A : FVec Ideal S100000x16 .f32) (B : FVec Ideal S1x16 .f32) (W : FVec Ideal S16x8 .f32)
    (y : S20000x8.Idx) (i : S100000x8.Idx) (p : Fin 20000) (q : Fin 8) (r : Fin 100000) (hy : y = ix2 p q) (hi : i = ix2 r q)
    (hx0 : ∀ k : Fin 16, x0 (ix2 p k) = A (ix2 r k))
    (hx1 : ∀ k : Fin 16, x1 (ix2 (0 : Fin 1) k) = B (ix2 (0 : Fin 1) k))
    (hx2 : ∀ (k : Fin 16) (s : Fin 8), x2 (ix2 k s) = W (ix2 k s)) :
    k1_pay1 (F := Ideal) x0 x1 x2 y
      = hidden A (fun j : (⟨1, ![16]⟩ : Shape).Idx => B (ix2 (0 : Fin 1) (j 0 : Fin 16))) W i := by
  subst hy hi
  refine (BodyValue.pay1_apply x0 x1 x2 p q).trans ?_
  refine (Finset.sum_congr rfl fun k _ => ?_).trans (hidden_apply A _ W r q).symm
  exact congrArg₂ (fun a b : EReal => a * b)
    (congrArg (fun t : EReal => max t zeroWord) (congrArg₂ (fun a b : EReal => a + b) (hx0 k) (hx1 k))) (hx2 k q)

/-- What point `t` writes back is block `t` of the hidden layer of the arrays as the region finds them. -/
theorem flushed1 (c : Dev nD) (t : Fin cfg1.N) :
    (dat1 V c).flushed 3 t = ((cfg1.win 3).blk t).view.read (Elt Ideal)
      (hidden (V c main_v43 : FVec Ideal S100000x16 .f32)
        (fun j : (⟨1, ![16]⟩ : Shape).Idx => (V c main_v44 : FVec Ideal S1x16 .f32) (ix2 (0 : Fin 1) (j 0 : Fin 16)))
        (V c main_arg4 : FVec Ideal S16x8 .f32)) := by
  show (cfg1.win 3).cut (grid1.coords t) ((dat1 V c).after 3 t) = _
  rw [after1_3]
  unfold out1_3
  rw [View.canon_unit_zero offsets_zero]
  simp only [View.ld_unit_zero (S := S20000x16) offsets_zero, View.ld_unit_zero (S := S1x16) offsets_zero,
    View.ld_unit_zero (S := S16x8) offsets_zero]
  obtain ⟨e0, e1, e2, e3, e4, e5, e6, e7⟩ := index1 t
  funext j
  refine rows1 _ _ _ _ _ _ j _ (j 0) (j 1) (((cfg1.win 3).blk t).view.emb j 0) (eq_ix2 j) ?_ ?_ ?_ ?_
  · refine (eq_ix2 _).trans (congrArg (ix2 _) (Fin.ext ?_))
    show win1_3.index t (1 : Fin 2) * 8 + 1 * (j 1).val = (j 1).val
    omega
  · intro k
    show V c main_v43 (((cfg1.win 0).blk t).view.emb (ix2 (j 0 : Fin 20000) k)) = V c main_v43 _
    refine congrArg (V c main_v43) (funext fun a => Fin.ext ?_)
    match a with
    | ⟨0, _⟩ => show win1_0.index t (0 : Fin 2) * 20000 + 1 * (j 0).val = win1_3.index t (0 : Fin 2) * 20000 + 1 * (j 0).val; omega
    | ⟨1, _⟩ => show win1_0.index t (1 : Fin 2) * 16 + 1 * k.val = k.val; omega
  · intro k
    show V c main_v44 (((cfg1.win 1).blk t).view.emb (ix2 (0 : Fin 1) k)) = V c main_v44 _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 16 + 1 * k.val = k.val; omega
  · intro k s
    show V c main_arg4 (((cfg1.win 2).blk t).view.emb (ix2 k s)) = V c main_arg4 _
    refine congrArg (V c main_arg4) (funext fun a => Fin.ext ?_)
    match a with
    | ⟨0, _⟩ => show win1_2.index t (0 : Fin 2) * 16 + 1 * k.val = k.val; omega
    | ⟨1, _⟩ => show win1_2.index t (1 : Fin 2) * 8 + 1 * s.val = s.val; omega

/-- An index of the result is in point `t`'s block iff each coordinate is in the block's range on its axis. -/
theorem mem_block1 (t : Fin cfg1.N) (i : S100000x8.Idx) :
    i ∈ ((cfg1.win 3).blk t).view.set ↔ ∀ a : Fin 2, win1_3.index t a * S20000x8.size a ≤ (i a).val
      ∧ (i a).val < win1_3.index t a * S20000x8.size a + S20000x8.size a := by
  show i ∈ ((View.whole main_v45).slice (win1_3.rect t)).set ↔ _
  rw [View.set_slice_whole, Rect.mem_set_unit]
  exact Iff.rfl

/-- Every block row of the result is some point's. -/
theorem onto1 : ∀ q0 : Fin 5, ∃ t : Fin cfg1.N, win1_3.index t = ![q0.val, 0] :=
  (by decide +kernel : ∀ q0 : Fin 5, ∃ t : Fin grid1.N, win1_3.index t = ![q0.val, 0])

/-- The five blocks cover the result: row `r` lies in the block of point `r / 20000`. -/
theorem cover1 (i : S100000x8.Idx) :
    ∃ t : Fin cfg1.N, (cfg1.win 3).flush t = true ∧ i ∈ ((cfg1.win 3).blk t).view.set := by
  have hi0 : (i 0).val < 100000 := (i 0).isLt
  have hi1 : (i 1).val < 8 := (i 1).isLt
  obtain ⟨t, ht⟩ := onto1 ⟨(i 0).val / 20000, by omega⟩
  have q0 : win1_3.index t (0 : Fin 2) = (i 0).val / 20000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 8 ≤ (i 1).val ∧ (i 1).val < win1_3.index t (1 : Fin 2) * 8 + 8; omega

/-- The second region's result array after its run: the hidden layer of the arrays as the region finds them, the bias
    read off the one row of its `[1, 16]` array. -/
theorem final1 (c : Dev nD) :
    (dat1 V c).arrAt 3 cfg1.N
      = hidden (V c main_v43 : FVec Ideal S100000x16 .f32)
        (fun j : (⟨1, ![16]⟩ : Shape).Idx => (V c main_v44 : FVec Ideal S1x16 .f32) (ix2 (0 : Fin 1) (j 0 : Fin 16)))
        (V c main_arg4 : FVec Ideal S16x8 .f32) :=
  (dat1 V c).arrAt_eq_of_cover 3 _ (fun t _ => flushed1 V c t) cover1

end Cert.KernelIdeal.RegionValue

end
-- ==== Proof.Region2.lean ====
/-
  The third region's array: the read-out `log_softmax (a + b2)` of the whole arrays, along each row.

  The grid has 5 points; point `t` reads rows `20000 t … 20000 t + 19999` of the second neighbourhood sum `a` and the
  bias row whole, and writes the same rows of the result.  An entry of the read-out depends on one row of `a` only, so
  the block point `t` writes back is the restriction of the whole read-out to its rows; the five blocks cover the
  `100000` rows.
-/
import proofs.«176402_j3642132267062_1_alg».proof.Proof.Gen.KernelIdeal.Frame
import proofs.«176402_j3642132267062_1_alg».proof.Proof.Payloads
import proofs.«176402_j3642132267062_1_alg».proof.Proof.Region0

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem GraphConvLayers
open Idealize.ShloMosaic.Pipeline (Dat Cfg Window)

variable (V : (c : Dev nD) → (b : Ref sig .tc) → Buf (Elt Ideal) ((c : Thread nD τ).loc b))

/-- The printed index maps over the 5 points: the row-blocked windows sit at block `(t, 0)`, the bias row at `(0, 0)`. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Over variables: the stored value at `y = (p, q)` is the whole read-out at `i = (r, q)` as soon as row `p` of the block
    is row `r` of the array and the bias row is the whole one. -/
theorem rows2 (x0 : Vec Ideal S20000x8 .f32) (x1 : Vec Ideal S1x8 .f32)
    (A : FVec Ideal S100000x8 .f32) (B : FVec Ideal S1x8 .f32)
    (y : S20000x8.Idx) (i : S100000x8.Idx) (p : Fin 20000) (q : Fin 8) (r : Fin 100000) (hy : y = ix2 p q) (hi : i = ix2 r q)
    (hx0 : ∀ k : Fin 8, x0 (ix2 p k) = A (ix2 r k))
    (hx1 : ∀ k : Fin 8, x1 (ix2 (0 : Fin 1) k) = B (ix2 (0 : Fin 1) k)) :
    k2_pay1 (F := Ideal) x0 x1 y
      = biasLogSoftmax A (fun j : (⟨1, ![8]⟩ : Shape).Idx => B (ix2 (0 : Fin 1) (j 0 : Fin 8))) i := by
  subst hy hi
  refine (BodyValue.pay2_apply x0 x1 p q).trans ?_
  refine (congrArg (fun z : Fin 8 → EReal => rowLogSoftmax z q) (funext fun k => ?_)).trans (biasLogSoftmax_apply A _ r q).symm
  exact congrArg₂ (fun a b : EReal => a + b) (hx0 k) (hx1 k)

/-- What point `t` writes back is block `t` of the read-out of the arrays as the region finds them. -/
theorem flushed2 (c : Dev nD) (t : Fin cfg2.N) :
    (dat2 V c).flushed 2 t = ((cfg2.win 2).blk t).view.read (Elt Ideal)
      (biasLogSoftmax (V c main_v58 : FVec Ideal S100000x8 .f32)
        (fun j : (⟨1, ![8]⟩ : Shape).Idx => (V c main_v59 : FVec Ideal S1x8 .f32) (ix2 (0 : Fin 1) (j 0 : Fin 8)))) := by
  show (cfg2.win 2).cut (grid2.coords t) ((dat2 V c).after 2 t) = _
  rw [after2_2]
  unfold out2_2
  rw [View.canon_unit_zero offsets_zero]
  simp only [View.ld_unit_zero (S := S20000x8) offsets_zero, View.ld_unit_zero (S := S1x8) offsets_zero]
  obtain ⟨e0, e1, e2, e3, e4, e5⟩ := index2 t
  funext j
  refine rows2 _ _ _ _ j _ (j 0) (j 1) (((cfg2.win 2).blk t).view.emb j 0) (eq_ix2 j) ?_ ?_ ?_
  · refine (eq_ix2 _).trans (congrArg (ix2 _) (Fin.ext ?_))
    show win2_2.index t (1 : Fin 2) * 8 + 1 * (j 1).val = (j 1).val
    omega
  · intro k
    show V c main_v58 (((cfg2.win 0).blk t).view.emb (ix2 (j 0 : Fin 20000) k)) = V c main_v58 _
    refine congrArg (V c main_v58) (funext fun a => Fin.ext ?_)
    match a with
    | ⟨0, _⟩ => show win2_0.index t (0 : Fin 2) * 20000 + 1 * (j 0).val = win2_2.index t (0 : Fin 2) * 20000 + 1 * (j 0).val; omega
    | ⟨1, _⟩ => show win2_0.index t (1 : Fin 2) * 8 + 1 * k.val = k.val; omega
  · intro k
    show V c main_v59 (((cfg2.win 1).blk t).view.emb (ix2 (0 : Fin 1) k)) = V c main_v59 _
    refine congrArg (V c main_v59) (funext fun a => Fin.ext ?_)
    match a with
    | ⟨0, _⟩ => show win2_1.index t (0 : Fin 2) * 1 + 1 * 0 = 0; omega
    | ⟨1, _⟩ => show win2_1.index t (1 : Fin 2) * 8 + 1 * k.val = k.val; omega

/-- An index of the result is in point `t`'s block iff each coordinate is in the block's range on its axis. -/
theorem mem_block2 (t : Fin cfg2.N) (i : S100000x8.Idx) :
    i ∈ ((cfg2.win 2).blk t).view.set ↔ ∀ a : Fin 2, win2_2.index t a * S20000x8.size a ≤ (i a).val
      ∧ (i a).val < win2_2.index t a * S20000x8.size a + S20000x8.size a := by
  show i ∈ ((View.whole main_v60).slice (win2_2.rect t)).set ↔ _
  rw [View.set_slice_whole, Rect.mem_set_unit]
  exact Iff.rfl

/-- Every block row of the result is some point's. -/
theorem onto2 : ∀ q0 : Fin 5, ∃ t : Fin cfg2.N, win2_2.index t = ![q0.val, 0] :=
  (by decide +kernel : ∀ q0 : Fin 5, ∃ t : Fin grid2.N, win2_2.index t = ![q0.val, 0])

/-- The five blocks cover the result: row `r` lies in the block of point `r / 20000`. -/
theorem cover2 (i : S100000x8.Idx) :
    ∃ t : Fin cfg2.N, (cfg2.win 2).flush t = true ∧ i ∈ ((cfg2.win 2).blk t).view.set := by
  have hi0 : (i 0).val < 100000 := (i 0).isLt
  have hi1 : (i 1).val < 8 := (i 1).isLt
  obtain ⟨t, ht⟩ := onto2 ⟨(i 0).val / 20000, by omega⟩
  have q0 : win2_2.index t (0 : Fin 2) = (i 0).val / 20000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 8 ≤ (i 1).val ∧ (i 1).val < win2_2.index t (1 : Fin 2) * 8 + 8; omega

/-- The third region's result array after its run: the read-out of the arrays as the region finds them, the bias read
    off the one row of its `[1, 8]` array. -/
theorem final2 (c : Dev nD) :
    (dat2 V c).arrAt 2 cfg2.N
      = biasLogSoftmax (V c main_v58 : FVec Ideal S100000x8 .f32)
        (fun j : (⟨1, ![8]⟩ : Shape).Idx => (V c main_v59 : FVec Ideal S1x8 .f32) (ix2 (0 : Fin 1) (j 0 : Fin 8))) :=
  (dat2 V c).arrAt_eq_of_cover 2 _ (fun t _ => flushed2 V c t) cover2

end Cert.KernelIdeal.RegionValue

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.KernelValue.lean ====
/-
  The kernel's result as one composition of the layers and the neighbourhood sums.

  The contents of the buffers at the eight boundaries of @main are read one buffer at a time, from the launch memory on:

    * after the first stretches of host operations: the messages' sources and targets and their weights, as functions of
      the edge list; the arguments untouched;
    * after the first region: `x · w1`, every other buffer as entered;
    * after the next stretch: the first neighbourhood sum of that product, the first bias as a `[1, 16]` row;
    * after the second region: the hidden layer `relu (sum + b1) · w2`;
    * after the next stretch: the second neighbourhood sum, the second bias as a `[1, 8]` row;
    * after the third region: `log_softmax (sum + b2)` along the rows — the result.

  A buffer that a stretch does not write, or that is not one of a region's arrays, keeps its contents across it.
-/
import proofs.«176402_j3642132267062_1_alg».proof.Proof.KernelRun
import proofs.«176402_j3642132267062_1_alg».proof.Proof.GlueKernel
import proofs.«176402_j3642132267062_1_alg».proof.Proof.Region0
import proofs.«176402_j3642132267062_1_alg».proof.Proof.Region1
import proofs.«176402_j3642132267062_1_alg».proof.Proof.Region2
import proofs.«176402_j3642132267062_1_alg».proof.Proof.LibJoinedPair

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo GraphConvLayers

/-! ## A typed reference's transport of contents is the identity at a literal buffer of the stated type -/

section Transports
variable {F : FTy → Type} [FloatOps F]

theorem toBuf_main_cst_2 (h1 h2 h3) (v : (⟨S_, .f32⟩ : BufTy).Contents (Elt F)) :
    (StableHlo.TRef.of (sig := sig) (T := ⟨S_, .f32⟩) main_cst_2 h1 h2 h3).toBuf v = v := rfl
theorem ofBuf_main_cst_2 (h1 h2 h3) (v : main_cst_2.ty.Contents (Elt F)) :
    (StableHlo.TRef.of (sig := sig) (T := ⟨S_, .f32⟩) main_cst_2 h1 h2 h3).ofBuf v = v := rfl
theorem toBuf_main_call0_v0 (h1 h2 h3) (v : (⟨S_, .f32⟩ : BufTy).Contents (Elt F)) :
    (StableHlo.TRef.of (sig := sig) (T := ⟨S_, .f32⟩) main_call0_v0 h1 h2 h3).toBuf v = v := rfl
theorem ofBuf_main_call0_v0 (h1 h2 h3) (v : main_call0_v0.ty.Contents (Elt F)) :
    (StableHlo.TRef.of (sig := sig) (T := ⟨S_, .f32⟩) main_call0_v0 h1 h2 h3).ofBuf v = v := rfl
theorem toBuf_main_call0_v1 (h1 h2 h3) (v : (⟨S100000, .f32⟩ : BufTy).Contents (Elt F)) :
    (StableHlo.TRef.of (sig := sig) (T := ⟨S100000, .f32⟩) main_call0_v1 h1 h2 h3).toBuf v = v := rfl
theorem ofBuf_main_call0_v1 (h1 h2 h3) (v : main_call0_v1.ty.Contents (Elt F)) :
    (StableHlo.TRef.of (sig := sig) (T := ⟨S100000, .f32⟩) main_call0_v1 h1 h2 h3).ofBuf v = v := rfl
theorem toBuf_main_v12 (h1 h2 h3) (v : (⟨S100000, .i1⟩ : BufTy).Contents (Elt F)) :
    (StableHlo.TRef.of (sig := sig) (T := ⟨S100000, .i1⟩) main_v12 h1 h2 h3).toBuf v = v := rfl
theorem ofBuf_main_v12 (h1 h2 h3) (v : main_v12.ty.Contents (Elt F)) :
    (StableHlo.TRef.of (sig := sig) (T := ⟨S100000, .i1⟩) main_v12 h1 h2 h3).ofBuf v = v := rfl
theorem toBuf_main_v13 (h1 h2 h3) (v : (⟨S100000, .f32⟩ : BufTy).Contents (Elt F)) :
    (StableHlo.TRef.of (sig := sig) (T := ⟨S100000, .f32⟩) main_v13 h1 h2 h3).toBuf v = v := rfl
theorem ofBuf_main_v13 (h1 h2 h3) (v : main_v13.ty.Contents (Elt F)) :
    (StableHlo.TRef.of (sig := sig) (T := ⟨S100000, .f32⟩) main_v13 h1 h2 h3).ofBuf v = v := rfl
theorem toBuf_main_v14 (h1 h2 h3) (v : (⟨S100000, .f32⟩ : BufTy).Contents (Elt F)) :
    (StableHlo.TRef.of (sig := sig) (T := ⟨S100000, .f32⟩) main_v14 h1 h2 h3).toBuf v = v := rfl
theorem ofBuf_main_v14 (h1 h2 h3) (v : main_v14.ty.Contents (Elt F)) :
    (StableHlo.TRef.of (sig := sig) (T := ⟨S100000, .f32⟩) main_v14 h1 h2 h3).ofBuf v = v := rfl

end Transports

/-- Reading a fold of host operations, the transports removed as they are met. -/
macro "read_ref" : tactic =>
  `(tactic| read_fold_casts [↓toBuf_main_cst_2, ↓ofBuf_main_cst_2, ↓toBuf_main_call0_v0, ↓ofBuf_main_call0_v0, ↓toBuf_main_call0_v1, ↓ofBuf_main_call0_v1, ↓toBuf_main_v12, ↓ofBuf_main_v12, ↓toBuf_main_v13, ↓ofBuf_main_v13, ↓toBuf_main_v14, ↓ofBuf_main_v14])

variable (m : (ℓ : Loc nD τ sig) → Buf (Elt Ideal) ℓ) (ρ : Dev nD → PrngReg)

/-- The whole program as a function of its six arguments: the feature transform, the first neighbourhood sum, the hidden
    layer, the second neighbourhood sum, the read-out. -/
def result (x : FVec Ideal S100000x128 .f32) (e : (⟨S2x3200000, .i32⟩ : BufTy).Contents (Elt Ideal))
    (w1 : FVec Ideal S128x16 .f32) (b1 : FVec Ideal S16 .f32) (w2 : FVec Ideal S16x8 .f32) (b2 : FVec Ideal S8 .f32) :
    FVec Ideal S100000x8 .f32 :=
  biasLogSoftmax (Glue.agg8 e (hidden (Glue.agg16 e (MatProd.matProd (φ₁ := .f32) (φ₂ := .f32) x w1)) b1 w2)) b2

/-! ## After the first stretches of host operations -/

theorem W3_v5 (c : Dev nD) : W3 m ρ c (Proc.devRef .tc main_v5) = Glue.src (m ((c : Thread nD τ).loc main_arg1)) := by
  show StableHlo.after hostOps0_2 (StableHlo.after hostOps0_1 (StableHlo.after hostOps0 (W0 m ρ c))) (Proc.devRef .tc main_v5) = _
  read_ref <;> rfl
theorem W3_v6 (c : Dev nD) : W3 m ρ c (Proc.devRef .tc main_v6) = Glue.dst (m ((c : Thread nD τ).loc main_arg1)) := by
  show StableHlo.after hostOps0_2 (StableHlo.after hostOps0_1 (StableHlo.after hostOps0 (W0 m ρ c))) (Proc.devRef .tc main_v6) = _
  read_ref <;> rfl
theorem W3_v29 (c : Dev nD) : W3 m ρ c (Proc.devRef .tc main_v29) = Glue.norm (m ((c : Thread nD τ).loc main_arg1)) := by
  show StableHlo.after hostOps0_2 (StableHlo.after hostOps0_1 (StableHlo.after hostOps0 (W0 m ρ c))) (Proc.devRef .tc main_v29) = _
  read_ref <;> rfl
theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  read_ref <;> rfl
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  read_ref <;> rfl
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  read_ref <;> rfl
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  read_ref <;> rfl
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  read_ref <;> rfl

/-! ## After the first region -/

theorem W4_v30 (c : Dev nD) : W4 m ρ c (Proc.devRef .tc main_v30)
    = MatProd.matProd (φ₁ := .f32) (φ₂ := .f32) ((m ((c : Thread nD τ).loc main_arg0)) : FVec Ideal S100000x128 .f32) ((m ((c : Thread nD τ).loc main_arg2)) : FVec Ideal S128x16 .f32) :=
  (W4_arr m ρ c 2).trans ((RegionValue.final0 (V3 m ρ) c).trans
    (congrArg₂ (fun (a : FVec Ideal S100000x128 .f32) (w : FVec Ideal S128x16 .f32) => MatProd.matProd (φ₁ := .f32) (φ₂ := .f32) a w)
      (W3_arg0 m ρ c) (W3_arg2 m ρ c)))
theorem W4_v5 (c : Dev nD) : W4 m ρ c (Proc.devRef .tc main_v5) = Glue.src (m ((c : Thread nD τ).loc main_arg1)) := (W4_of_ne m ρ c main_v5 (by decide)).trans (W3_v5 m ρ c)
theorem W4_v6 (c : Dev nD) : W4 m ρ c (Proc.devRef .tc main_v6) = Glue.dst (m ((c : Thread nD τ).loc main_arg1)) := (W4_of_ne m ρ c main_v6 (by decide)).trans (W3_v6 m ρ c)
theorem W4_v29 (c : Dev nD) : W4 m ρ c (Proc.devRef .tc main_v29) = Glue.norm (m ((c : Thread nD τ).loc main_arg1)) := (W4_of_ne m ρ c main_v29 (by decide)).trans (W3_v29 m ρ c)
theorem W4_arg3 (c : Dev nD) : W4 m ρ c (Proc.devRef .tc main_arg3) = (m ((c : Thread nD τ).loc main_arg3)) := (W4_of_ne m ρ c main_arg3 (by decide)).trans (W3_arg3 m ρ c)
theorem W4_arg4 (c : Dev nD) : W4 m ρ c (Proc.devRef .tc main_arg4) = (m ((c : Thread nD τ).loc main_arg4)) := (W4_of_ne m ρ c main_arg4 (by decide)).trans (W3_arg4 m ρ c)
theorem W4_arg5 (c : Dev nD) : W4 m ρ c (Proc.devRef .tc main_arg5) = (m ((c : Thread nD τ).loc main_arg5)) := (W4_of_ne m ρ c main_arg5 (by decide)).trans (W3_arg5 m ρ c)

/-! ## After the stretch between the first and the second region -/

theorem W5_v43 (c : Dev nD) : W5 m ρ c (Proc.devRef .tc main_v43) = Glue.agg16 (m ((c : Thread nD τ).loc main_arg1)) (W4 m ρ c (Proc.devRef .tc main_v30)) := by
  show StableHlo.after hostOps1 (W4 m ρ c) (Proc.devRef .tc main_v43) = _
  read_ref
  rw [W4_v5, W4_v6, W4_v29]
  rfl
theorem W5_v44 (c : Dev nD) : W5 m ρ c (Proc.devRef .tc main_v44) = shapeCast S1x16 (m ((c : Thread nD τ).loc main_arg3)) shapeCasts_S16_S1x16 := by
  show StableHlo.after hostOps1 (W4 m ρ c) (Proc.devRef .tc main_v44) = _
  read_ref
  rw [W4_arg3]
  rfl
theorem W5_v5 (c : Dev nD) : W5 m ρ c (Proc.devRef .tc main_v5) = Glue.src (m ((c : Thread nD τ).loc main_arg1)) := by
  show StableHlo.after hostOps1 (W4 m ρ c) (Proc.devRef .tc main_v5) = _
  read_ref
  exact W4_v5 m ρ c
theorem W5_v6 (c : Dev nD) : W5 m ρ c (Proc.devRef .tc main_v6) = Glue.dst (m ((c : Thread nD τ).loc main_arg1)) := by
  show StableHlo.after hostOps1 (W4 m ρ c) (Proc.devRef .tc main_v6) = _
  read_ref
  exact W4_v6 m ρ c
theorem W5_v29 (c : Dev nD) : W5 m ρ c (Proc.devRef .tc main_v29) = Glue.norm (m ((c : Thread nD τ).loc main_arg1)) := by
  show StableHlo.after hostOps1 (W4 m ρ c) (Proc.devRef .tc main_v29) = _
  read_ref
  exact W4_v29 m ρ c
theorem W5_arg4 (c : Dev nD) : W5 m ρ c (Proc.devRef .tc main_arg4) = (m ((c : Thread nD τ).loc main_arg4)) := by
  show StableHlo.after hostOps1 (W4 m ρ c) (Proc.devRef .tc main_arg4) = _
  read_ref
  exact W4_arg4 m ρ c
theorem W5_arg5 (c : Dev nD) : W5 m ρ c (Proc.devRef .tc main_arg5) = (m ((c : Thread nD τ).loc main_arg5)) := by
  show StableHlo.after hostOps1 (W4 m ρ c) (Proc.devRef .tc main_arg5) = _
  read_ref
  exact W4_arg5 m ρ c

/-! ## After the second region -/

theorem W6_v45 (c : Dev nD) : W6 m ρ c (Proc.devRef .tc main_v45)
    = hidden (Glue.agg16 (m ((c : Thread nD τ).loc main_arg1)) (MatProd.matProd (φ₁ := .f32) (φ₂ := .f32) ((m ((c : Thread nD τ).loc main_arg0)) : FVec Ideal S100000x128 .f32) ((m ((c : Thread nD τ).loc main_arg2)) : FVec Ideal S128x16 .f32)))
        ((m ((c : Thread nD τ).loc main_arg3)) : FVec Ideal S16 .f32) ((m ((c : Thread nD τ).loc main_arg4)) : FVec Ideal S16x8 .f32) := by
  refine (W6_arr m ρ c 3).trans ((RegionValue.final1 (V5 m ρ) c).trans ?_)
  show hidden (W5 m ρ c (Proc.devRef .tc main_v43) : FVec Ideal S100000x16 .f32)
      (fun j : (⟨1, ![16]⟩ : Shape).Idx => (W5 m ρ c (Proc.devRef .tc main_v44) : FVec Ideal S1x16 .f32) (ix2 (0 : Fin 1) (j 0 : Fin 16)))
      (W5 m ρ c (Proc.devRef .tc main_arg4) : FVec Ideal S16x8 .f32) = _
  rw [W5_v43, W5_v44, W5_arg4, W4_v30]
  exact congrArg (fun b : FVec Ideal S16 .f32 => hidden _ b _) (rowOf_cast (K := 16) (m ((c : Thread nD τ).loc main_arg3)) shapeCasts_S16_S1x16)
theorem W6_v5 (c : Dev nD) : W6 m ρ c (Proc.devRef .tc main_v5) = Glue.src (m ((c : Thread nD τ).loc main_arg1)) := (W6_of_ne m ρ c main_v5 (by decide)).trans (W5_v5 m ρ c)
theorem W6_v6 (c : Dev nD) : W6 m ρ c (Proc.devRef .tc main_v6) = Glue.dst (m ((c : Thread nD τ).loc main_arg1)) := (W6_of_ne m ρ c main_v6 (by decide)).trans (W5_v6 m ρ c)
theorem W6_v29 (c : Dev nD) : W6 m ρ c (Proc.devRef .tc main_v29) = Glue.norm (m ((c : Thread nD τ).loc main_arg1)) := (W6_of_ne m ρ c main_v29 (by decide)).trans (W5_v29 m ρ c)
theorem W6_arg5 (c : Dev nD) : W6 m ρ c (Proc.devRef .tc main_arg5) = (m ((c : Thread nD τ).loc main_arg5)) := (W6_of_ne m ρ c main_arg5 (by decide)).trans (W5_arg5 m ρ c)

/-! ## After the stretch between the second and the third region -/

theorem W7_v58 (c : Dev nD) : W7 m ρ c (Proc.devRef .tc main_v58) = Glue.agg8 (m ((c : Thread nD τ).loc main_arg1)) (W6 m ρ c (Proc.devRef .tc main_v45)) := by
  show StableHlo.after hostOps2 (W6 m ρ c) (Proc.devRef .tc main_v58) = _
  read_ref
  rw [W6_v5, W6_v6, W6_v29]
  rfl
theorem W7_v59 (c : Dev nD) : W7 m ρ c (Proc.devRef .tc main_v59) = shapeCast S1x8 (m ((c : Thread nD τ).loc main_arg5)) shapeCasts_S8_S1x8 := by
  show StableHlo.after hostOps2 (W6 m ρ c) (Proc.devRef .tc main_v59) = _
  read_ref
  rw [W6_arg5]
  rfl

/-! ## After the third region: the result -/

theorem W8_v60 (c : Dev nD) : W8 m ρ c (Proc.devRef .tc main_v60)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((RegionValue.final2 (V7 m ρ) c).trans ?_)
  show biasLogSoftmax (W7 m ρ c (Proc.devRef .tc main_v58) : FVec Ideal S100000x8 .f32)
      (fun j : (⟨1, ![8]⟩ : Shape).Idx => (W7 m ρ c (Proc.devRef .tc main_v59) : FVec Ideal S1x8 .f32) (ix2 (0 : Fin 1) (j 0 : Fin 8))) = _
  rw [W7_v58, W7_v59, W6_v45]
  exact congrArg (fun b : FVec Ideal S8 .f32 => biasLogSoftmax _ b) (rowOf_cast (K := 8) (m ((c : Thread nD τ).loc main_arg5)) shapeCasts_S8_S1x8)

/-- Every weakly fair execution of the kernel's @main terminates with the result buffer at `result` of the launch
    contents of the six arguments, and the arguments as launched. -/
theorem run : θ_run defs (onTc (τ := τ) (main (F := Ideal))) ⟨m, fun _ => 0, ρ⟩ (fun r => ∀ c : Dev nD,
      r.2.mem ((c.tc : Thread nD τ).loc main_v60) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_v60 m ρ c), (h c).2⟩) (NamedRun.run_named m ρ)

end Cert.KernelIdeal.KernelValue

end
-- ==== Proof.GlueReference.lean ====
/-
  The neighbourhood sums of the graph convolution, as the host spells them in `ReferenceIdeal`.

  From the edge list `e : [2, E]` the host builds, with self loops appended, the sources `src` and targets `dst` of the
  `E + n` messages; the degree of a node is the number of messages that reach it, `dinv` its inverse square root (zero
  where the degree is not positive), and a message's weight is `dinv src · dinv dst`.  A layer's neighbourhood sum
  gathers the rows of `h` at the sources (a negative index wrapped by `n`), scales each by its message's weight and
  scatter-adds them into a zero array at the targets.  These are the host's own operations, named here so that a whole
  program's result is a short composition; nothing below is evaluated.
-/
import proofs.«176402_j3642132267062_1_alg».proof.ReferenceIdeal

noncomputable section

namespace Cert.ReferenceIdeal.Glue

open Cert.ReferenceIdeal Idealize.ShloMosaic Idealize.ShloMosaic.TcCoe

variable {F : FTy → Type} [FloatOps F] [Facts]
open Facts₀ Facts

/-- The messages' sources: row 0 of the edge list, then every node once. -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The messages' targets: row 1 of the edge list, then every node once. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A list of node numbers as an index column. -/
def col (x : (⟨S3300000, .i32⟩ : BufTy).Contents (Elt F)) : (⟨S3300000x1, .i32⟩ : BufTy).Contents (Elt F) :=
  broadcastInDim S3300000x1 ![0] bcast_S3300000_S3300000x1_0 x

/-- A negative node number wrapped around by the number of nodes. -/
def wrap (x : (⟨S3300000, .i32⟩ : BufTy).Contents (Elt F)) : (⟨S3300000, .i32⟩ : BufTy).Contents (Elt F) :=
  select (cmpi .slt x (broadcastInDim S3300000 ![] bcast_S_S3300000 (constantI S_ 32 0#32))) (addi x (broadcastInDim S3300000 ![] bcast_S_S3300000 (constantI S_ 32 100000#32))) x

/-- The number of messages reaching each node. -/
def deg (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant (F := F) S_ .f32 0x00000000#32)) (col (dst e)) (broadcastInDim S3300000 ![] bcast_S_S3300000 (constant (F := F) S_ .f32 0x3F800000#32))

/-- The inverse square root of the degree, zero where the degree is not positive. -/
def dinv (e : (⟨S2x3200000, .i32⟩ : BufTy).Contents (Elt F)) : (⟨S100000, .f32⟩ : BufTy).Contents (Elt F) :=
  select (cmpf (F := F) .ogt (deg e) (broadcastInDim S100000 ![] bcast_S_S100000 (constant (F := F) S_ .f32 0x00000000#32))) (Host.rsqrt (deg e)) (broadcastInDim S100000 ![] bcast_S_S100000 (id (constant (F := F) S_ .f32 0x00000000#32)))

/-- The weight of each message. -/
def norm (e : (⟨S2x3200000, .i32⟩ : BufTy).Contents (Elt F)) : (⟨S3300000, .f32⟩ : BufTy).Contents (Elt F) :=
  mulf (Host.gather gather_S100000_S3300000x1_S3300000_n_0_n_n_0_1_1 (dinv e) (col (wrap (src e)))) (Host.gather gather_S100000_S3300000x1_S3300000_n_0_n_n_0_1_1 (dinv e) (col (wrap (dst e))))

/-- The neighbourhood sum of a 16-wide layer. -/
def agg16 (e : (⟨S2x3200000, .i32⟩ : BufTy).Contents (Elt F)) (h : (⟨S100000x16, .f32⟩ : BufTy).Contents (Elt F)) :
    (⟨S100000x16, .f32⟩ : BufTy).Contents (Elt F) :=
  Host.scatterAdd scatter_S100000x16_S3300000x1_S3300000x16_1_0_0_1 (broadcastInDim S100000x16 ![] bcast_S_S100000x16 (constant (F := F) S_ .f32 0x00000000#32)) (col (dst e)) (mulf (Host.gather gather_S100000x16_S3300000x1_S3300000x16_1_0_n_n_0_1_116 h (col (wrap (src e)))) (broadcastInDim S3300000x16 ![0, 1] bcast_S3300000x1_S3300000x16_0_1 (broadcastInDim S3300000x1 ![0] bcast_S3300000_S3300000x1_0 (norm e))))

/-- The neighbourhood sum of an 8-wide layer. -/
def agg8 (e : (⟨S2x3200000, .i32⟩ : BufTy).Contents (Elt F)) (h : (⟨S100000x8, .f32⟩ : BufTy).Contents (Elt F)) :
    (⟨S100000x8, .f32⟩ : BufTy).Contents (Elt F) :=
  Host.scatterAdd scatter_S100000x8_S3300000x1_S3300000x8_1_0_0_1 (broadcastInDim S100000x8 ![] bcast_S_S100000x8 (constant (F := F) S_ .f32 0x00000000#32)) (col (dst e)) (mulf (Host.gather gather_S100000x8_S3300000x1_S3300000x8_1_0_n_n_0_1_18 h (col (wrap (src e)))) (broadcastInDim S3300000x8 ![0, 1] bcast_S3300000x1_S3300000x8_0_1 (broadcastInDim S3300000x1 ![0] bcast_S3300000_S3300000x1_0 (norm e))))

end Cert.ReferenceIdeal.Glue

end
-- ==== Proof.ReferenceTransports.lean ====
/-
  A typed reference's transport of contents is the identity.

  A value of a called function is kept in a buffer through a typed reference: the buffer's own type is, by computation,
  the value's type, and contents are carried from the one to the other along that equation.  At a literal buffer of the
  stated type the carrying is the identity; one equation per buffer and direction says so, so that a reading of the
  program's operations can drop the carrying as soon as it meets it.
-/
import proofs.«176402_j3642132267062_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.ShloMosaic.StableHlo

section Transports
variable {F : FTy → Type} [FloatOps F]

theorem toBuf_main_cst_2 (h1 h2 h3) (v : (⟨S_, .f32⟩ : BufTy).Contents (Elt F)) :
    (StableHlo.TRef.of (sig := sig) (T := ⟨S_, .f32⟩) main_cst_2 h1 h2 h3).toBuf v = v := rfl
theorem ofBuf_main_cst_2 (h1 h2 h3) (v : main_cst_2.ty.Contents (Elt F)) :
    (StableHlo.TRef.of (sig := sig) (T := ⟨S_, .f32⟩) main_cst_2 h1 h2 h3).ofBuf v = v := rfl
theorem toBuf_main_call0_v0 (h1 h2 h3) (v : (⟨S_, .f32⟩ : BufTy).Contents (Elt F)) :
    (StableHlo.TRef.of (sig := sig) (T := ⟨S_, .f32⟩) main_call0_v0 h1 h2 h3).toBuf v = v := rfl
theorem ofBuf_main_call0_v0 (h1 h2 h3) (v : main_call0_v0.ty.Contents (Elt F)) :
    (StableHlo.TRef.of (sig := sig) (T := ⟨S_, .f32⟩) main_call0_v0 h1 h2 h3).ofBuf v = v := rfl
theorem toBuf_main_call0_v1 (h1 h2 h3) (v : (⟨S100000, .f32⟩ : BufTy).Contents (Elt F)) :
    (StableHlo.TRef.of (sig := sig) (T := ⟨S100000, .f32⟩) main_call0_v1 h1 h2 h3).toBuf v = v := rfl
theorem ofBuf_main_call0_v1 (h1 h2 h3) (v : main_call0_v1.ty.Contents (Elt F)) :
    (StableHlo.TRef.of (sig := sig) (T := ⟨S100000, .f32⟩) main_call0_v1 h1 h2 h3).ofBuf v = v := rfl
theorem toBuf_main_v12 (h1 h2 h3) (v : (⟨S100000, .i1⟩ : BufTy).Contents (Elt F)) :
    (StableHlo.TRef.of (sig := sig) (T := ⟨S100000, .i1⟩) main_v12 h1 h2 h3).toBuf v = v := rfl
theorem ofBuf_main_v12 (h1 h2 h3) (v : main_v12.ty.Contents (Elt F)) :
    (StableHlo.TRef.of (sig := sig) (T := ⟨S100000, .i1⟩) main_v12 h1 h2 h3).ofBuf v = v := rfl
theorem toBuf_main_v13 (h1 h2 h3) (v : (⟨S100000, .f32⟩ : BufTy).Contents (Elt F)) :
    (StableHlo.TRef.of (sig := sig) (T := ⟨S100000, .f32⟩) main_v13 h1 h2 h3).toBuf v = v := rfl
theorem ofBuf_main_v13 (h1 h2 h3) (v : main_v13.ty.Contents (Elt F)) :
    (StableHlo.TRef.of (sig := sig) (T := ⟨S100000, .f32⟩) main_v13 h1 h2 h3).ofBuf v = v := rfl
theorem toBuf_main_v14 (h1 h2 h3) (v : (⟨S100000, .f32⟩ : BufTy).Contents (Elt F)) :
    (StableHlo.TRef.of (sig := sig) (T := ⟨S100000, .f32⟩) main_v14 h1 h2 h3).toBuf v = v := rfl
theorem ofBuf_main_v14 (h1 h2 h3) (v : main_v14.ty.Contents (Elt F)) :
    (StableHlo.TRef.of (sig := sig) (T := ⟨S100000, .f32⟩) main_v14 h1 h2 h3).ofBuf v = v := rfl
theorem toBuf_main_call1_cst (h1 h2 h3) (v : (⟨S_, .f32⟩ : BufTy).Contents (Elt F)) :
    (StableHlo.TRef.of (sig := sig) (T := ⟨S_, .f32⟩) main_call1_cst h1 h2 h3).toBuf v = v := rfl
theorem ofBuf_main_call1_cst (h1 h2 h3) (v : main_call1_cst.ty.Contents (Elt F)) :
    (StableHlo.TRef.of (sig := sig) (T := ⟨S_, .f32⟩) main_call1_cst h1 h2 h3).ofBuf v = v := rfl
theorem toBuf_main_call1_v0 (h1 h2 h3) (v : (⟨S100000x16, .f32⟩ : BufTy).Contents (Elt F)) :
    (StableHlo.TRef.of (sig := sig) (T := ⟨S100000x16, .f32⟩) main_call1_v0 h1 h2 h3).toBuf v = v := rfl
theorem ofBuf_main_call1_v0 (h1 h2 h3) (v : main_call1_v0.ty.Contents (Elt F)) :
    (StableHlo.TRef.of (sig := sig) (T := ⟨S100000x16, .f32⟩) main_call1_v0 h1 h2 h3).ofBuf v = v := rfl
theorem toBuf_main_v46 (h1 h2 h3) (v : (⟨S100000x16, .f32⟩ : BufTy).Contents (Elt F)) :
    (StableHlo.TRef.of (sig := sig) (T := ⟨S100000x16, .f32⟩) main_v46 h1 h2 h3).toBuf v = v := rfl
theorem ofBuf_main_v46 (h1 h2 h3) (v : main_v46.ty.Contents (Elt F)) :
    (StableHlo.TRef.of (sig := sig) (T := ⟨S100000x16, .f32⟩) main_v46 h1 h2 h3).ofBuf v = v := rfl
theorem toBuf_main_v47 (h1 h2 h3) (v : (⟨S100000x16, .f32⟩ : BufTy).Contents (Elt F)) :
    (StableHlo.TRef.of (sig := sig) (T := ⟨S100000x16, .f32⟩) main_v47 h1 h2 h3).toBuf v = v := rfl
theorem ofBuf_main_v47 (h1 h2 h3) (v : main_v47.ty.Contents (Elt F)) :
    (StableHlo.TRef.of (sig := sig) (T := ⟨S100000x16, .f32⟩) main_v47 h1 h2 h3).ofBuf v = v := rfl
theorem toBuf_main_call2_cst (h1 h2 h3) (v : (⟨S_, .f32⟩ : BufTy).Contents (Elt F)) :
    (StableHlo.TRef.of (sig := sig) (T := ⟨S_, .f32⟩) main_call2_cst h1 h2 h3).toBuf v = v := rfl
theorem ofBuf_main_call2_cst (h1 h2 h3) (v : main_call2_cst.ty.Contents (Elt F)) :
    (StableHlo.TRef.of (sig := sig) (T := ⟨S_, .f32⟩) main_call2_cst h1 h2 h3).ofBuf v = v := rfl
theorem toBuf_main_v64 (h1 h2 h3) (v : (⟨S100000x8, .f32⟩ : BufTy).Contents (Elt F)) :
    (StableHlo.TRef.of (sig := sig) (T := ⟨S100000x8, .f32⟩) main_v64 h1 h2 h3).toBuf v = v := rfl
theorem ofBuf_main_v64 (h1 h2 h3) (v : main_v64.ty.Contents (Elt F)) :
    (StableHlo.TRef.of (sig := sig) (T := ⟨S100000x8, .f32⟩) main_v64 h1 h2 h3).ofBuf v = v := rfl
theorem toBuf_main_call2_v0 (h1 h2 h3) (v : (⟨S100000, .f32⟩ : BufTy).Contents (Elt F)) :
    (StableHlo.TRef.of (sig := sig) (T := ⟨S100000, .f32⟩) main_call2_v0 h1 h2 h3).toBuf v = v := rfl
theorem ofBuf_main_call2_v0 (h1 h2 h3) (v : main_call2_v0.ty.Contents (Elt F)) :
    (StableHlo.TRef.of (sig := sig) (T := ⟨S100000, .f32⟩) main_call2_v0 h1 h2 h3).ofBuf v = v := rfl
theorem toBuf_main_call2_cst_0 (h1 h2 h3) (v : (⟨S_, .f32⟩ : BufTy).Contents (Elt F)) :
    (StableHlo.TRef.of (sig := sig) (T := ⟨S_, .f32⟩) main_call2_cst_0 h1 h2 h3).toBuf v = v := rfl
theorem ofBuf_main_call2_cst_0 (h1 h2 h3) (v : main_call2_cst_0.ty.Contents (Elt F)) :
    (StableHlo.TRef.of (sig := sig) (T := ⟨S_, .f32⟩) main_call2_cst_0 h1 h2 h3).ofBuf v = v := rfl
theorem toBuf_main_call2_v1 (h1 h2 h3) (v : (⟨S100000, .f32⟩ : BufTy).Contents (Elt F)) :
    (StableHlo.TRef.of (sig := sig) (T := ⟨S100000, .f32⟩) main_call2_v1 h1 h2 h3).toBuf v = v := rfl
theorem ofBuf_main_call2_v1 (h1 h2 h3) (v : main_call2_v1.ty.Contents (Elt F)) :
    (StableHlo.TRef.of (sig := sig) (T := ⟨S100000, .f32⟩) main_call2_v1 h1 h2 h3).ofBuf v = v := rfl
theorem toBuf_main_call2_v2 (h1 h2 h3) (v : (⟨S100000, .f32⟩ : BufTy).Contents (Elt F)) :
    (StableHlo.TRef.of (sig := sig) (T := ⟨S100000, .f32⟩) main_call2_v2 h1 h2 h3).toBuf v = v := rfl
theorem ofBuf_main_call2_v2 (h1 h2 h3) (v : main_call2_v2.ty.Contents (Elt F)) :
    (StableHlo.TRef.of (sig := sig) (T := ⟨S100000, .f32⟩) main_call2_v2 h1 h2 h3).ofBuf v = v := rfl
theorem toBuf_main_call2_v3 (h1 h2 h3) (v : (⟨S100000x1, .f32⟩ : BufTy).Contents (Elt F)) :
    (StableHlo.TRef.of (sig := sig) (T := ⟨S100000x1, .f32⟩) main_call2_v3 h1 h2 h3).toBuf v = v := rfl
theorem ofBuf_main_call2_v3 (h1 h2 h3) (v : main_call2_v3.ty.Contents (Elt F)) :
    (StableHlo.TRef.of (sig := sig) (T := ⟨S100000x1, .f32⟩) main_call2_v3 h1 h2 h3).ofBuf v = v := rfl
theorem toBuf_main_call2_v4 (h1 h2 h3) (v : (⟨S100000x8, .f32⟩ : BufTy).Contents (Elt F)) :
    (StableHlo.TRef.of (sig := sig) (T := ⟨S100000x8, .f32⟩) main_call2_v4 h1 h2 h3).toBuf v = v := rfl
theorem ofBuf_main_call2_v4 (h1 h2 h3) (v : main_call2_v4.ty.Contents (Elt F)) :
    (StableHlo.TRef.of (sig := sig) (T := ⟨S100000x8, .f32⟩) main_call2_v4 h1 h2 h3).ofBuf v = v := rfl
theorem toBuf_main_call2_v5 (h1 h2 h3) (v : (⟨S100000x8, .f32⟩ : BufTy).Contents (Elt F)) :
    (StableHlo.TRef.of (sig := sig) (T := ⟨S100000x8, .f32⟩) main_call2_v5 h1 h2 h3).toBuf v = v := rfl
theorem ofBuf_main_call2_v5 (h1 h2 h3) (v : main_call2_v5.ty.Contents (Elt F)) :
    (StableHlo.TRef.of (sig := sig) (T := ⟨S100000x8, .f32⟩) main_call2_v5 h1 h2 h3).ofBuf v = v := rfl
theorem toBuf_main_call2_v6 (h1 h2 h3) (v : (⟨S100000x8, .f32⟩ : BufTy).Contents (Elt F)) :
    (StableHlo.TRef.of (sig := sig) (T := ⟨S100000x8, .f32⟩) main_call2_v6 h1 h2 h3).toBuf v = v := rfl
theorem ofBuf_main_call2_v6 (h1 h2 h3) (v : main_call2_v6.ty.Contents (Elt F)) :
    (StableHlo.TRef.of (sig := sig) (T := ⟨S100000x8, .f32⟩) main_call2_v6 h1 h2 h3).ofBuf v = v := rfl
theorem toBuf_main_call2_cst_1 (h1 h2 h3) (v : (⟨S_, .f32⟩ : BufTy).Contents (Elt F)) :
    (StableHlo.TRef.of (sig := sig) (T := ⟨S_, .f32⟩) main_call2_cst_1 h1 h2 h3).toBuf v = v := rfl
theorem ofBuf_main_call2_cst_1 (h1 h2 h3) (v : main_call2_cst_1.ty.Contents (Elt F)) :
    (StableHlo.TRef.of (sig := sig) (T := ⟨S_, .f32⟩) main_call2_cst_1 h1 h2 h3).ofBuf v = v := rfl
theorem toBuf_main_call2_v7 (h1 h2 h3) (v : (⟨S100000, .f32⟩ : BufTy).Contents (Elt F)) :
    (StableHlo.TRef.of (sig := sig) (T := ⟨S100000, .f32⟩) main_call2_v7 h1 h2 h3).toBuf v = v := rfl
theorem ofBuf_main_call2_v7 (h1 h2 h3) (v : main_call2_v7.ty.Contents (Elt F)) :
    (StableHlo.TRef.of (sig := sig) (T := ⟨S100000, .f32⟩) main_call2_v7 h1 h2 h3).ofBuf v = v := rfl
theorem toBuf_main_call2_v8 (h1 h2 h3) (v : (⟨S100000x1, .f32⟩ : BufTy).Contents (Elt F)) :
    (StableHlo.TRef.of (sig := sig) (T := ⟨S100000x1, .f32⟩) main_call2_v8 h1 h2 h3).toBuf v = v := rfl
theorem ofBuf_main_call2_v8 (h1 h2 h3) (v : main_call2_v8.ty.Contents (Elt F)) :
    (StableHlo.TRef.of (sig := sig) (T := ⟨S100000x1, .f32⟩) main_call2_v8 h1 h2 h3).ofBuf v = v := rfl
theorem toBuf_main_call2_v9 (h1 h2 h3) (v : (⟨S100000x1, .f32⟩ : BufTy).Contents (Elt F)) :
    (StableHlo.TRef.of (sig := sig) (T := ⟨S100000x1, .f32⟩) main_call2_v9 h1 h2 h3).toBuf v = v := rfl
theorem ofBuf_main_call2_v9 (h1 h2 h3) (v : main_call2_v9.ty.Contents (Elt F)) :
    (StableHlo.TRef.of (sig := sig) (T := ⟨S100000x1, .f32⟩) main_call2_v9 h1 h2 h3).ofBuf v = v := rfl
theorem toBuf_main_call2_v10 (h1 h2 h3) (v : (⟨S100000x8, .f32⟩ : BufTy).Contents (Elt F)) :
    (StableHlo.TRef.of (sig := sig) (T := ⟨S100000x8, .f32⟩) main_call2_v10 h1 h2 h3).toBuf v = v := rfl
theorem ofBuf_main_call2_v10 (h1 h2 h3) (v : main_call2_v10.ty.Contents (Elt F)) :
    (StableHlo.TRef.of (sig := sig) (T := ⟨S100000x8, .f32⟩) main_call2_v10 h1 h2 h3).ofBuf v = v := rfl
theorem toBuf_main_v65 (h1 h2 h3) (v : (⟨S100000x8, .f32⟩ : BufTy).Contents (Elt F)) :
    (StableHlo.TRef.of (sig := sig) (T := ⟨S100000x8, .f32⟩) main_v65 h1 h2 h3).toBuf v = v := rfl
theorem ofBuf_main_v65 (h1 h2 h3) (v : main_v65.ty.Contents (Elt F)) :
    (StableHlo.TRef.of (sig := sig) (T := ⟨S100000x8, .f32⟩) main_v65 h1 h2 h3).ofBuf v = v := rfl

theorem toBufF_main_cst_2 (h1 h2 h3) (v : FVec F S_ .f32) :
    (StableHlo.TRef.of (sig := sig) (T := ⟨S_, .f32⟩) main_cst_2 h1 h2 h3).toBuf (Val := Elt F) v = v := rfl
theorem toBufF_main_call0_v0 (h1 h2 h3) (v : FVec F S_ .f32) :
    (StableHlo.TRef.of (sig := sig) (T := ⟨S_, .f32⟩) main_call0_v0 h1 h2 h3).toBuf (Val := Elt F) v = v := rfl
theorem toBufF_main_call0_v1 (h1 h2 h3) (v : FVec F S100000 .f32) :
    (StableHlo.TRef.of (sig := sig) (T := ⟨S100000, .f32⟩) main_call0_v1 h1 h2 h3).toBuf (Val := Elt F) v = v := rfl
theorem toBufF_main_v13 (h1 h2 h3) (v : FVec F S100000 .f32) :
    (StableHlo.TRef.of (sig := sig) (T := ⟨S100000, .f32⟩) main_v13 h1 h2 h3).toBuf (Val := Elt F) v = v := rfl
theorem toBufF_main_v14 (h1 h2 h3) (v : FVec F S100000 .f32) :
    (StableHlo.TRef.of (sig := sig) (T := ⟨S100000, .f32⟩) main_v14 h1 h2 h3).toBuf (Val := Elt F) v = v := rfl
theorem toBufF_main_call1_cst (h1 h2 h3) (v : FVec F S_ .f32) :
    (StableHlo.TRef.of (sig := sig) (T := ⟨S_, .f32⟩) main_call1_cst h1 h2 h3).toBuf (Val := Elt F) v = v := rfl
theorem toBufF_main_call1_v0 (h1 h2 h3) (v : FVec F S100000x16 .f32) :
    (StableHlo.TRef.of (sig := sig) (T := ⟨S100000x16, .f32⟩) main_call1_v0 h1 h2 h3).toBuf (Val := Elt F) v = v := rfl
theorem toBufF_main_v46 (h1 h2 h3) (v : FVec F S100000x16 .f32) :
    (StableHlo.TRef.of (sig := sig) (T := ⟨S100000x16, .f32⟩) main_v46 h1 h2 h3).toBuf (Val := Elt F) v = v := rfl
theorem toBufF_main_v47 (h1 h2 h3) (v : FVec F S100000x16 .f32) :
    (StableHlo.TRef.of (sig := sig) (T := ⟨S100000x16, .f32⟩) main_v47 h1 h2 h3).toBuf (Val := Elt F) v = v := rfl
theorem toBufF_main_call2_cst (h1 h2 h3) (v : FVec F S_ .f32) :
    (StableHlo.TRef.of (sig := sig) (T := ⟨S_, .f32⟩) main_call2_cst h1 h2 h3).toBuf (Val := Elt F) v = v := rfl
theorem toBufF_main_v64 (h1 h2 h3) (v : FVec F S100000x8 .f32) :
    (StableHlo.TRef.of (sig := sig) (T := ⟨S100000x8, .f32⟩) main_v64 h1 h2 h3).toBuf (Val := Elt F) v = v := rfl
theorem toBufF_main_call2_v0 (h1 h2 h3) (v : FVec F S100000 .f32) :
    (StableHlo.TRef.of (sig := sig) (T := ⟨S100000, .f32⟩) main_call2_v0 h1 h2 h3).toBuf (Val := Elt F) v = v := rfl
theorem toBufF_main_call2_cst_0 (h1 h2 h3) (v : FVec F S_ .f32) :
    (StableHlo.TRef.of (sig := sig) (T := ⟨S_, .f32⟩) main_call2_cst_0 h1 h2 h3).toBuf (Val := Elt F) v = v := rfl
theorem toBufF_main_call2_v1 (h1 h2 h3) (v : FVec F S100000 .f32) :
    (StableHlo.TRef.of (sig := sig) (T := ⟨S100000, .f32⟩) main_call2_v1 h1 h2 h3).toBuf (Val := Elt F) v = v := rfl
theorem toBufF_main_call2_v2 (h1 h2 h3) (v : FVec F S100000 .f32) :
    (StableHlo.TRef.of (sig := sig) (T := ⟨S100000, .f32⟩) main_call2_v2 h1 h2 h3).toBuf (Val := Elt F) v = v := rfl
theorem toBufF_main_call2_v3 (h1 h2 h3) (v : FVec F S100000x1 .f32) :
    (StableHlo.TRef.of (sig := sig) (T := ⟨S100000x1, .f32⟩) main_call2_v3 h1 h2 h3).toBuf (Val := Elt F) v = v := rfl
theorem toBufF_main_call2_v4 (h1 h2 h3) (v : FVec F S100000x8 .f32) :
    (StableHlo.TRef.of (sig := sig) (T := ⟨S100000x8, .f32⟩) main_call2_v4 h1 h2 h3).toBuf (Val := Elt F) v = v := rfl
theorem toBufF_main_call2_v5 (h1 h2 h3) (v : FVec F S100000x8 .f32) :
    (StableHlo.TRef.of (sig := sig) (T := ⟨S100000x8, .f32⟩) main_call2_v5 h1 h2 h3).toBuf (Val := Elt F) v = v := rfl
theorem toBufF_main_call2_v6 (h1 h2 h3) (v : FVec F S100000x8 .f32) :
    (StableHlo.TRef.of (sig := sig) (T := ⟨S100000x8, .f32⟩) main_call2_v6 h1 h2 h3).toBuf (Val := Elt F) v = v := rfl
theorem toBufF_main_call2_cst_1 (h1 h2 h3) (v : FVec F S_ .f32) :
    (StableHlo.TRef.of (sig := sig) (T := ⟨S_, .f32⟩) main_call2_cst_1 h1 h2 h3).toBuf (Val := Elt F) v = v := rfl
theorem toBufF_main_call2_v7 (h1 h2 h3) (v : FVec F S100000 .f32) :
    (StableHlo.TRef.of (sig := sig) (T := ⟨S100000, .f32⟩) main_call2_v7 h1 h2 h3).toBuf (Val := Elt F) v = v := rfl
theorem toBufF_main_call2_v8 (h1 h2 h3) (v : FVec F S100000x1 .f32) :
    (StableHlo.TRef.of (sig := sig) (T := ⟨S100000x1, .f32⟩) main_call2_v8 h1 h2 h3).toBuf (Val := Elt F) v = v := rfl
theorem toBufF_main_call2_v9 (h1 h2 h3) (v : FVec F S100000x1 .f32) :
    (StableHlo.TRef.of (sig := sig) (T := ⟨S100000x1, .f32⟩) main_call2_v9 h1 h2 h3).toBuf (Val := Elt F) v = v := rfl
theorem toBufF_main_call2_v10 (h1 h2 h3) (v : FVec F S100000x8 .f32) :
    (StableHlo.TRef.of (sig := sig) (T := ⟨S100000x8, .f32⟩) main_call2_v10 h1 h2 h3).toBuf (Val := Elt F) v = v := rfl
theorem toBufF_main_v65 (h1 h2 h3) (v : FVec F S100000x8 .f32) :
    (StableHlo.TRef.of (sig := sig) (T := ⟨S100000x8, .f32⟩) main_v65 h1 h2 h3).toBuf (Val := Elt F) v = v := rfl

end Transports

end Cert.ReferenceIdeal.RefValue

end
-- ==== Proof.ReferenceValue.lean ====
/-
  The reference's result as the same composition of the layers and the neighbourhood sums.

  The reference's @main is a line of 98 host operations.  It is cut into four stretches — the messages and their weights;
  the feature transform, the first neighbourhood sum, the bias, `relu` and the second product; the second neighbourhood
  sum and its bias; `log_softmax` — and the contents of the buffers after each stretch are read one buffer at a time from
  the launch memory on, every intermediate named as soon as it is read.  The host's `dot_general`s are the matrix
  product, its bias-`maximum`-`dot_general` the hidden layer, and its reductions kept as columns the read-out
  (the layers' module), so the result buffer ends at the composition the kernel's result ends at.
-/
import proofs.«176402_j3642132267062_1_alg».proof.Proof.ReferenceRun
import proofs.«176402_j3642132267062_1_alg».proof.Proof.GlueReference
import proofs.«176402_j3642132267062_1_alg».proof.Proof.LibGraphConvLayers
import proofs.«176402_j3642132267062_1_alg».proof.Proof.LibJoinedPair
import proofs.«176402_j3642132267062_1_alg».proof.Proof.ReferenceTransports

set_option maxRecDepth 16384

noncomputable section

namespace Cert.ReferenceIdeal.RefValue

open Cert.ReferenceIdeal Cert.ReferenceIdeal.Gen Idealize.ShloMosaic Idealize.ShloMosaic.TcCoe Idealize.ShloMosaic.ValueIdx
open Idealize.SL.Sem Idealize.ShloMosaic.StableHlo GraphConvLayers

/-- Running one line after another is running their concatenation. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- Reading a fold of host operations, the transports removed as they are met. -/
macro "read_ref" : tactic =>
  `(tactic| read_fold_casts [↓toBuf_main_cst_2, ↓ofBuf_main_cst_2, toBuf_main_cst_2, ofBuf_main_cst_2, ↓toBuf_main_call0_v0, ↓ofBuf_main_call0_v0, toBuf_main_call0_v0, ofBuf_main_call0_v0, ↓toBuf_main_call0_v1, ↓ofBuf_main_call0_v1, toBuf_main_call0_v1, ofBuf_main_call0_v1, ↓toBuf_main_v12, ↓ofBuf_main_v12, toBuf_main_v12, ofBuf_main_v12, ↓toBuf_main_v13, ↓ofBuf_main_v13, toBuf_main_v13, ofBuf_main_v13, ↓toBuf_main_v14, ↓ofBuf_main_v14, toBuf_main_v14, ofBuf_main_v14, ↓toBuf_main_call1_cst, ↓ofBuf_main_call1_cst, toBuf_main_call1_cst, ofBuf_main_call1_cst, ↓toBuf_main_call1_v0, ↓ofBuf_main_call1_v0, toBuf_main_call1_v0, ofBuf_main_call1_v0, ↓toBuf_main_v46, ↓ofBuf_main_v46, toBuf_main_v46, ofBuf_main_v46, ↓toBuf_main_v47, ↓ofBuf_main_v47, toBuf_main_v47, ofBuf_main_v47, ↓toBuf_main_call2_cst, ↓ofBuf_main_call2_cst, toBuf_main_call2_cst, ofBuf_main_call2_cst, ↓toBuf_main_v64, ↓ofBuf_main_v64, toBuf_main_v64, ofBuf_main_v64, ↓toBuf_main_call2_v0, ↓ofBuf_main_call2_v0, toBuf_main_call2_v0, ofBuf_main_call2_v0, ↓toBuf_main_call2_cst_0, ↓ofBuf_main_call2_cst_0, toBuf_main_call2_cst_0, ofBuf_main_call2_cst_0, ↓toBuf_main_call2_v1, ↓ofBuf_main_call2_v1, toBuf_main_call2_v1, ofBuf_main_call2_v1, ↓toBuf_main_call2_v2, ↓ofBuf_main_call2_v2, toBuf_main_call2_v2, ofBuf_main_call2_v2, ↓toBuf_main_call2_v3, ↓ofBuf_main_call2_v3, toBuf_main_call2_v3, ofBuf_main_call2_v3, ↓toBuf_main_call2_v4, ↓ofBuf_main_call2_v4, toBuf_main_call2_v4, ofBuf_main_call2_v4, ↓toBuf_main_call2_v5, ↓ofBuf_main_call2_v5, toBuf_main_call2_v5, ofBuf_main_call2_v5, ↓toBuf_main_call2_v6, ↓ofBuf_main_call2_v6, toBuf_main_call2_v6, ofBuf_main_call2_v6, ↓toBuf_main_call2_cst_1, ↓ofBuf_main_call2_cst_1, toBuf_main_call2_cst_1, ofBuf_main_call2_cst_1, ↓toBuf_main_call2_v7, ↓ofBuf_main_call2_v7, toBuf_main_call2_v7, ofBuf_main_call2_v7, ↓toBuf_main_call2_v8, ↓ofBuf_main_call2_v8, toBuf_main_call2_v8, ofBuf_main_call2_v8, ↓toBuf_main_call2_v9, ↓ofBuf_main_call2_v9, toBuf_main_call2_v9, ofBuf_main_call2_v9, ↓toBuf_main_call2_v10, ↓ofBuf_main_call2_v10, toBuf_main_call2_v10, ofBuf_main_call2_v10, ↓toBuf_main_v65, ↓ofBuf_main_v65, toBuf_main_v65, ofBuf_main_v65, ↓toBufF_main_cst_2, toBufF_main_cst_2, ↓toBufF_main_call0_v0, toBufF_main_call0_v0, ↓toBufF_main_call0_v1, toBufF_main_call0_v1, ↓toBufF_main_v13, toBufF_main_v13, ↓toBufF_main_v14, toBufF_main_v14, ↓toBufF_main_call1_cst, toBufF_main_call1_cst, ↓toBufF_main_call1_v0, toBufF_main_call1_v0, ↓toBufF_main_v46, toBufF_main_v46, ↓toBufF_main_v47, toBufF_main_v47, ↓toBufF_main_call2_cst, toBufF_main_call2_cst, ↓toBufF_main_v64, toBufF_main_v64, ↓toBufF_main_call2_v0, toBufF_main_call2_v0, ↓toBufF_main_call2_cst_0, toBufF_main_call2_cst_0, ↓toBufF_main_call2_v1, toBufF_main_call2_v1, ↓toBufF_main_call2_v2, toBufF_main_call2_v2, ↓toBufF_main_call2_v3, toBufF_main_call2_v3, ↓toBufF_main_call2_v4, toBufF_main_call2_v4, ↓toBufF_main_call2_v5, toBufF_main_call2_v5, ↓toBufF_main_call2_v6, toBufF_main_call2_v6, ↓toBufF_main_call2_cst_1, toBufF_main_call2_cst_1, ↓toBufF_main_call2_v7, toBufF_main_call2_v7, ↓toBufF_main_call2_v8, toBufF_main_call2_v8, ↓toBufF_main_call2_v9, toBufF_main_call2_v9, ↓toBufF_main_call2_v10, toBufF_main_call2_v10, ↓toBufF_main_v65, toBufF_main_v65])

section Stretches
variable {F : FTy → Type} [FloatOps F]

/-- The first stretch: the messages' sources, targets and weights. -/
abbrev ops1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v5 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v5 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v5 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The second stretch: the feature transform, the first neighbourhood sum, the bias, `relu`, the second product. -/
abbrev ops2 : List (HloOp τ sig (Elt F)) :=
  [ binary main_arg0 main_arg2 main_v30 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v5 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v5 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v5 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)) ]

/-- The third stretch: the second neighbourhood sum and its bias. -/
abbrev ops3 : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v5 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v5 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v5 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x8 ![0, 1] bcast_S3300000x1_S3300000x8_0_1 : (⟨S3300000x1, .f32⟩ : BufTy).Contents (Elt F) → (⟨S3300000x8, .f32⟩ : BufTy).Contents (Elt F)),
    binary main_v55 main_v57 main_v58 (mulf : (⟨S3300000x8, .f32⟩ : BufTy).Contents (Elt F) → (⟨S3300000x8, .f32⟩ : BufTy).Contents (Elt F) → (⟨S3300000x8, .f32⟩ : BufTy).Contents (Elt F)),
    nullary main_cst_11 (constant S_ .f32 0x00000000#32),
    unary main_cst_11 main_v59 (broadcastInDim S100000x8 ![] bcast_S_S100000x8 : (⟨S_, .f32⟩ : BufTy).Contents (Elt F) → (⟨S100000x8, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg5 main_v62 (broadcastInDim S1x8 ![1] bcast_S8_S1x8_1 : (⟨S8, .f32⟩ : BufTy).Contents (Elt F) → (⟨S1x8, .f32⟩ : BufTy).Contents (Elt F)),
    unary main_v62 main_v63 (broadcastInDim S100000x8 ![0, 1] bcast_S1x8_S100000x8_0_1 : (⟨S1x8, .f32⟩ : BufTy).Contents (Elt F) → (⟨S100000x8, .f32⟩ : BufTy).Contents (Elt F)),
    binary main_v61 main_v63 main_v64 (addf : (⟨S100000x8, .f32⟩ : BufTy).Contents (Elt F) → (⟨S100000x8, .f32⟩ : BufTy).Contents (Elt F) → (⟨S100000x8, .f32⟩ : BufTy).Contents (Elt F)) ]

/-- The fourth stretch: `log_softmax` along the rows. -/
abbrev ops4 : List (HloOp τ sig (Elt F)) :=
  [ TRef.nullary (TRef.of (T := ⟨S_, .f32⟩) main_call2_cst) (constant S_ .f32 0xFF800000#32),
    TRef.binary (TRef.of (T := ⟨S100000x8, .f32⟩) main_v64) (TRef.of (T := ⟨S_, .f32⟩) main_call2_cst) (TRef.of (T := ⟨S100000, .f32⟩) main_call2_v0) (fun x v => Host.reduce FloatOps.maximumf x v reducesTo_S100000x8_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x8, .f32⟩) main_call2_v4) (broadcastInDim S100000x8 ![0, 1] bcast_S100000x1_S100000x8_0_1),
    TRef.binary (TRef.of (T := ⟨S100000x8, .f32⟩) main_v64) (TRef.of (T := ⟨S100000x8, .f32⟩) main_call2_v4) (TRef.of (T := ⟨S100000x8, .f32⟩) main_call2_v5) subf,
    TRef.unary (TRef.of (T := ⟨S100000x8, .f32⟩) main_call2_v5) (TRef.of (T := ⟨S100000x8, .f32⟩) main_call2_v6) Host.exp,
    TRef.nullary (TRef.of (T := ⟨S_, .f32⟩) main_call2_cst_1) (constant S_ .f32 0x00000000#32),
    TRef.binary (TRef.of (T := ⟨S100000x8, .f32⟩) main_call2_v6) (TRef.of (T := ⟨S_, .f32⟩) main_call2_cst_1) (TRef.of (T := ⟨S100000, .f32⟩) main_call2_v7) (fun x v => Host.reduceAdd x v reducesTo_S100000x8_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x8, .f32⟩) main_call2_v10) (broadcastInDim S100000x8 ![0, 1] bcast_S100000x1_S100000x8_0_1),
    TRef.binary (TRef.of (T := ⟨S100000x8, .f32⟩) main_call2_v5) (TRef.of (T := ⟨S100000x8, .f32⟩) main_call2_v10) (TRef.of (T := ⟨S100000x8, .f32⟩) main_v65) subf ]

set_option maxRecDepth 65536 in
/-- The four stretches, in order, are the whole line. -/
theorem ops_split : (ValueP.ops : List (HloOp τ sig (Elt F))) = ops1 ++ (ops2 ++ (ops3 ++ ops4)) := rfl

end Stretches

variable (m : (ℓ : Loc nD τ sig) → Buf (Elt Ideal) ℓ)

/-- The buffers' contents after the first stretch, `…` the second, the third, the fourth. -/
def U1 (c : Dev nD) : Valuation τ sig (Elt Ideal) := StableHlo.after ops1 (launchContents m c)
def U2 (c : Dev nD) : Valuation τ sig (Elt Ideal) := StableHlo.after ops2 (U1 m c)
def U3 (c : Dev nD) : Valuation τ sig (Elt Ideal) := StableHlo.after ops3 (U2 m c)
def U4 (c : Dev nD) : Valuation τ sig (Elt Ideal) := StableHlo.after ops4 (U3 m c)

theorem after_ops (c : Dev nD) : StableHlo.after ValueP.ops (launchContents m c) = U4 m c := by
  rw [ops_split, after_app, after_app, after_app]
  rfl

/-- The whole program as a function of its six arguments: the feature transform, the first neighbourhood sum, the hidden
    layer, the second neighbourhood sum, the read-out. -/
def result (x : FVec Ideal S100000x128 .f32) (e : (⟨S2x3200000, .i32⟩ : BufTy).Contents (Elt Ideal))
    (w1 : FVec Ideal S128x16 .f32) (b1 : FVec Ideal S16 .f32) (w2 : FVec Ideal S16x8 .f32) (b2 : FVec Ideal S8 .f32) :
    FVec Ideal S100000x8 .f32 :=
  biasLogSoftmax (Glue.agg8 e (hidden (Glue.agg16 e (MatProd.matProd (φ₁ := .f32) (φ₂ := .f32) x w1)) b1 w2)) b2

/-! ## After the first stretch -/

theorem U1_v5 (c : Dev nD) : U1 m c (Proc.devRef .tc main_v5) = Glue.src (m ((c.tc : Thread nD τ).loc main_arg1)) := by
  show StableHlo.after ops1 (launchContents m c) (Proc.devRef .tc main_v5) = _
  read_ref <;> rfl
theorem U1_v6 (c : Dev nD) : U1 m c (Proc.devRef .tc main_v6) = Glue.dst (m ((c.tc : Thread nD τ).loc main_arg1)) := by
  show StableHlo.after ops1 (launchContents m c) (Proc.devRef .tc main_v6) = _
  read_ref <;> rfl
theorem U1_v29 (c : Dev nD) : U1 m c (Proc.devRef .tc main_v29) = Glue.norm (m ((c.tc : Thread nD τ).loc main_arg1)) := by
  show StableHlo.after ops1 (launchContents m c) (Proc.devRef .tc main_v29) = _
  read_ref <;> rfl
theorem U1_arg0 (c : Dev nD) : U1 m c (Proc.devRef .tc main_arg0) = (m ((c.tc : Thread nD τ).loc main_arg0)) := by
  show StableHlo.after ops1 (launchContents m c) (Proc.devRef .tc main_arg0) = _
  read_ref <;> rfl
theorem U1_arg2 (c : Dev nD) : U1 m c (Proc.devRef .tc main_arg2) = (m ((c.tc : Thread nD τ).loc main_arg2)) := by
  show StableHlo.after ops1 (launchContents m c) (Proc.devRef .tc main_arg2) = _
  read_ref <;> rfl
theorem U1_arg3 (c : Dev nD) : U1 m c (Proc.devRef .tc main_arg3) = (m ((c.tc : Thread nD τ).loc main_arg3)) := by
  show StableHlo.after ops1 (launchContents m c) (Proc.devRef .tc main_arg3) = _
  read_ref <;> rfl
theorem U1_arg4 (c : Dev nD) : U1 m c (Proc.devRef .tc main_arg4) = (m ((c.tc : Thread nD τ).loc main_arg4)) := by
  show StableHlo.after ops1 (launchContents m c) (Proc.devRef .tc main_arg4) = _
  read_ref <;> rfl
theorem U1_arg5 (c : Dev nD) : U1 m c (Proc.devRef .tc main_arg5) = (m ((c.tc : Thread nD τ).loc main_arg5)) := by
  show StableHlo.after ops1 (launchContents m c) (Proc.devRef .tc main_arg5) = _
  read_ref <;> rfl

theorem U1_arg1 (c : Dev nD) : U1 m c (Proc.devRef .tc main_arg1) = (m ((c.tc : Thread nD τ).loc main_arg1)) := by
  show StableHlo.after ops1 (launchContents m c) (Proc.devRef .tc main_arg1) = _
  read_ref <;> rfl

/-! ## After the second stretch -/

theorem U2_v48 (c : Dev nD) : U2 m c (Proc.devRef .tc main_v48)
    = hidden (Glue.agg16 (m ((c.tc : Thread nD τ).loc main_arg1)) (MatProd.matProd (φ₁ := .f32) (φ₂ := .f32) ((m ((c.tc : Thread nD τ).loc main_arg0)) : FVec Ideal S100000x128 .f32) ((m ((c.tc : Thread nD τ).loc main_arg2)) : FVec Ideal S128x16 .f32)))
        ((m ((c.tc : Thread nD τ).loc main_arg3)) : FVec Ideal S16 .f32) ((m ((c.tc : Thread nD τ).loc main_arg4)) : FVec Ideal S16x8 .f32) := by
  show StableHlo.after ops2 (U1 m c) (Proc.devRef .tc main_v48) = _
  read_ref
  rw [U1_v5, U1_v6, U1_v29, U1_arg0, U1_arg2, U1_arg3, U1_arg4]
  refine (host_hidden dot_S100000x16_S16x8_S100000x8_1_0_0_1_n_n rfl none _ bcast_S16_S1x16_1 bcast_S1x16_S100000x16_0_1
    bcast_S_S100000x16 (Glue.agg16 (m ((c.tc : Thread nD τ).loc main_arg1)) (Host.dotGeneral (F := Ideal) dot_S100000x128_S128x16_S100000x16_1_0_0_1_n_n none (m ((c.tc : Thread nD τ).loc main_arg0)) (m ((c.tc : Thread nD τ).loc main_arg2))))
    (m ((c.tc : Thread nD τ).loc main_arg3)) (m ((c.tc : Thread nD τ).loc main_arg4))).trans ?_
  refine congrArg (fun a : FVec Ideal S100000x16 .f32 => hidden a ((m ((c.tc : Thread nD τ).loc main_arg3)) : FVec Ideal S16 .f32) ((m ((c.tc : Thread nD τ).loc main_arg4)) : FVec Ideal S16x8 .f32))
    (congrArg (Glue.agg16 (m ((c.tc : Thread nD τ).loc main_arg1))) ?_)
  exact MatProd.dotGeneral_eq_matProd (φ₁ := .f32) (φ₂ := .f32) dot_S100000x128_S128x16_S100000x16_1_0_0_1_n_n rfl none _ _ _
theorem U2_v5 (c : Dev nD) : U2 m c (Proc.devRef .tc main_v5) = Glue.src (m ((c.tc : Thread nD τ).loc main_arg1)) := by
  show StableHlo.after ops2 (U1 m c) (Proc.devRef .tc main_v5) = _
  read_ref
  exact U1_v5 m c
theorem U2_v6 (c : Dev nD) : U2 m c (Proc.devRef .tc main_v6) = Glue.dst (m ((c.tc : Thread nD τ).loc main_arg1)) := by
  show StableHlo.after ops2 (U1 m c) (Proc.devRef .tc main_v6) = _
  read_ref
  exact U1_v6 m c
theorem U2_v29 (c : Dev nD) : U2 m c (Proc.devRef .tc main_v29) = Glue.norm (m ((c.tc : Thread nD τ).loc main_arg1)) := by
  show StableHlo.after ops2 (U1 m c) (Proc.devRef .tc main_v29) = _
  read_ref
  exact U1_v29 m c

theorem U2_arg0 (c : Dev nD) : U2 m c (Proc.devRef .tc main_arg0) = (m ((c.tc : Thread nD τ).loc main_arg0)) := by
  show StableHlo.after ops2 (U1 m c) (Proc.devRef .tc main_arg0) = _
  read_ref
  exact U1_arg0 m c
theorem U2_arg1 (c : Dev nD) : U2 m c (Proc.devRef .tc main_arg1) = (m ((c.tc : Thread nD τ).loc main_arg1)) := by
  show StableHlo.after ops2 (U1 m c) (Proc.devRef .tc main_arg1) = _
  read_ref
  exact U1_arg1 m c
theorem U2_arg2 (c : Dev nD) : U2 m c (Proc.devRef .tc main_arg2) = (m ((c.tc : Thread nD τ).loc main_arg2)) := by
  show StableHlo.after ops2 (U1 m c) (Proc.devRef .tc main_arg2) = _
  read_ref
  exact U1_arg2 m c
theorem U2_arg3 (c : Dev nD) : U2 m c (Proc.devRef .tc main_arg3) = (m ((c.tc : Thread nD τ).loc main_arg3)) := by
  show StableHlo.after ops2 (U1 m c) (Proc.devRef .tc main_arg3) = _
  read_ref
  exact U1_arg3 m c
theorem U2_arg4 (c : Dev nD) : U2 m c (Proc.devRef .tc main_arg4) = (m ((c.tc : Thread nD τ).loc main_arg4)) := by
  show StableHlo.after ops2 (U1 m c) (Proc.devRef .tc main_arg4) = _
  read_ref
  exact U1_arg4 m c
theorem U2_arg5 (c : Dev nD) : U2 m c (Proc.devRef .tc main_arg5) = (m ((c.tc : Thread nD τ).loc main_arg5)) := by
  show StableHlo.after ops2 (U1 m c) (Proc.devRef .tc main_arg5) = _
  read_ref
  exact U1_arg5 m c

/-! ## After the third stretch -/

theorem U3_v64 (c : Dev nD) : U3 m c (Proc.devRef .tc main_v64)
    = addf (Glue.agg8 (m ((c.tc : Thread nD τ).loc main_arg1)) (U2 m c (Proc.devRef .tc main_v48)))
        (broadcastInDim S100000x8 ![0, 1] bcast_S1x8_S100000x8_0_1 (broadcastInDim S1x8 ![1] bcast_S8_S1x8_1 (m ((c.tc : Thread nD τ).loc main_arg5)))) := by
  show StableHlo.after ops3 (U2 m c) (Proc.devRef .tc main_v64) = _
  read_ref
  rw [U2_v5, U2_v6, U2_v29, U2_arg5]
  rfl

theorem U3_arg0 (c : Dev nD) : U3 m c (Proc.devRef .tc main_arg0) = (m ((c.tc : Thread nD τ).loc main_arg0)) := by
  show StableHlo.after ops3 (U2 m c) (Proc.devRef .tc main_arg0) = _
  read_ref
  exact U2_arg0 m c
theorem U3_arg1 (c : Dev nD) : U3 m c (Proc.devRef .tc main_arg1) = (m ((c.tc : Thread nD τ).loc main_arg1)) := by
  show StableHlo.after ops3 (U2 m c) (Proc.devRef .tc main_arg1) = _
  read_ref
  exact U2_arg1 m c
theorem U3_arg2 (c : Dev nD) : U3 m c (Proc.devRef .tc main_arg2) = (m ((c.tc : Thread nD τ).loc main_arg2)) := by
  show StableHlo.after ops3 (U2 m c) (Proc.devRef .tc main_arg2) = _
  read_ref
  exact U2_arg2 m c
theorem U3_arg3 (c : Dev nD) : U3 m c (Proc.devRef .tc main_arg3) = (m ((c.tc : Thread nD τ).loc main_arg3)) := by
  show StableHlo.after ops3 (U2 m c) (Proc.devRef .tc main_arg3) = _
  read_ref
  exact U2_arg3 m c
theorem U3_arg4 (c : Dev nD) : U3 m c (Proc.devRef .tc main_arg4) = (m ((c.tc : Thread nD τ).loc main_arg4)) := by
  show StableHlo.after ops3 (U2 m c) (Proc.devRef .tc main_arg4) = _
  read_ref
  exact U2_arg4 m c
theorem U3_arg5 (c : Dev nD) : U3 m c (Proc.devRef .tc main_arg5) = (m ((c.tc : Thread nD τ).loc main_arg5)) := by
  show StableHlo.after ops3 (U2 m c) (Proc.devRef .tc main_arg5) = _
  read_ref
  exact U2_arg5 m c

/-! ## After the fourth stretch: the result -/

theorem U4_v65 (c : Dev nD) : U4 m c (Proc.devRef .tc main_v65)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after ops4 (U3 m c) (Proc.devRef .tc main_v65) = _
  read_ref
  rw [U3_v64, U2_v48]
  exact host_biasLogSoftmax bcast_S8_S1x8_1 bcast_S1x8_S100000x8_0_1 reducesTo_S100000x8_S100000_d1
    (by decide : S100000x8.Reduces [1] S100000) h_S_ bcast_S_S100000 bcast_S100000_S100000x1_0 bcast_S100000x1_S100000x8_0_1 _ _

theorem U4_arg0 (c : Dev nD) : U4 m c (Proc.devRef .tc main_arg0) = (m ((c.tc : Thread nD τ).loc main_arg0)) := by
  show StableHlo.after ops4 (U3 m c) (Proc.devRef .tc main_arg0) = _
  read_ref
  exact U3_arg0 m c
theorem U4_arg1 (c : Dev nD) : U4 m c (Proc.devRef .tc main_arg1) = (m ((c.tc : Thread nD τ).loc main_arg1)) := by
  show StableHlo.after ops4 (U3 m c) (Proc.devRef .tc main_arg1) = _
  read_ref
  exact U3_arg1 m c
theorem U4_arg2 (c : Dev nD) : U4 m c (Proc.devRef .tc main_arg2) = (m ((c.tc : Thread nD τ).loc main_arg2)) := by
  show StableHlo.after ops4 (U3 m c) (Proc.devRef .tc main_arg2) = _
  read_ref
  exact U3_arg2 m c
theorem U4_arg3 (c : Dev nD) : U4 m c (Proc.devRef .tc main_arg3) = (m ((c.tc : Thread nD τ).loc main_arg3)) := by
  show StableHlo.after ops4 (U3 m c) (Proc.devRef .tc main_arg3) = _
  read_ref
  exact U3_arg3 m c
theorem U4_arg4 (c : Dev nD) : U4 m c (Proc.devRef .tc main_arg4) = (m ((c.tc : Thread nD τ).loc main_arg4)) := by
  show StableHlo.after ops4 (U3 m c) (Proc.devRef .tc main_arg4) = _
  read_ref
  exact U3_arg4 m c
theorem U4_arg5 (c : Dev nD) : U4 m c (Proc.devRef .tc main_arg5) = (m ((c.tc : Thread nD τ).loc main_arg5)) := by
  show StableHlo.after ops4 (U3 m c) (Proc.devRef .tc main_arg5) = _
  read_ref
  exact U3_arg5 m c

/-- Every weakly fair execution of the reference's @main terminates with the result buffer at `result` of the launch
    contents of the six arguments, and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v65) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v65).trans ((congrFun (after_ops m c) _).trans (U4_v65 m c)),
       (h c main_arg0).trans ((congrFun (after_ops m c) _).trans (U4_arg0 m c)),
       (h c main_arg1).trans ((congrFun (after_ops m c) _).trans (U4_arg1 m c)),
       (h c main_arg2).trans ((congrFun (after_ops m c) _).trans (U4_arg2 m c)),
       (h c main_arg3).trans ((congrFun (after_ops m c) _).trans (U4_arg3 m c)),
       (h c main_arg4).trans ((congrFun (after_ops m c) _).trans (U4_arg4 m c)),
       (h c main_arg5).trans ((congrFun (after_ops m c) _).trans (U4_arg5 m c))⟩)
    (run_seq ValueP.scopedRefs_eq ValueP.scopedSems_eq defs main (fun _ => ValueP.ops) ValueP.main_eq (fun _ => ValueP.ops_sub) m ρ)

end Cert.ReferenceIdeal.RefValue

end
-- ==== Proof.lean ====
/-
  A two-layer graph convolution with a `log_softmax` read-out: the kernel against its reference, over the extended reals.

  Both programs build, from the edge list, the messages of the graph with self loops and their symmetric weights
  `dinv src · dinv dst`, and then compute

      log_softmax ( S ( relu ( S (x · w1) + b1 ) · w2 ) + b2 )        along the rows,

  where `S` gathers rows at the messages' sources, scales them by the weights and scatter-adds them at the targets.
  The reference does all of it with host operations.  The kernel computes the three dense maps — `x · w1`,
  `a ↦ relu (a + b1) · w2` and `a ↦ log_softmax (a + b2)` — in three grids over blocks of rows, with the operands of the two
  products narrowed to a shorter float format on the way in, and leaves `S` to the same host operations.

  At the ideal values a change of float format is the identity and a product into a zero accumulator is the plain sum;
  each of the three maps acts on every row by itself, so the blocks a grid writes back are the restrictions of the map
  of the whole arrays and, covering all rows, leave exactly that array (the three region modules).  The buffers' contents at
  the boundaries between host stretches and grids then compose to one function of the six arguments (the kernel's value
  module); the reference's line of host operations, read stretch by stretch, composes to the same function (the
  reference's value module), the host's spelling of each dense map being that map (the layers' module).  No law of
  arithmetic beyond reading sums and maxima at an index is used, so the precondition is never opened.

  The frames of the two kernel programs are the generated ones; the reference's is its run with the result dropped; the
  idealization rewrote no operation, so there is nothing to preserve.
-/
import proofs.«176402_j3642132267062_1_alg».proof.Defs
import proofs.«176402_j3642132267062_1_alg».proof.Proof.Gen.Kernel
import proofs.«176402_j3642132267062_1_alg».proof.Proof.Gen.Kernel.Frame
import proofs.«176402_j3642132267062_1_alg».proof.Proof.Gen.KernelIdeal
import proofs.«176402_j3642132267062_1_alg».proof.Proof.Gen.KernelIdeal.Frame
import proofs.«176402_j3642132267062_1_alg».proof.Proof.Gen.ReferenceIdeal
import proofs.«176402_j3642132267062_1_alg».proof.Proof.Gen.Pre_finite_inputs
import proofs.«176402_j3642132267062_1_alg».proof.Proof.KernelValue
import proofs.«176402_j3642132267062_1_alg».proof.Proof.ReferenceValue

noncomputable section

namespace Cert.Proof

open Idealize.ShloMosaic Idealize.ShloMosaic.TcCoe Idealize.SL.Sem

/-- The neighbourhood sums are spelt with the same host operations in both programs. -/
theorem agg16_same (e : (⟨Cert.KernelIdeal.S2x3200000, .i32⟩ : BufTy).Contents (Elt Ideal))
    (h : (⟨Cert.KernelIdeal.S100000x16, .f32⟩ : BufTy).Contents (Elt Ideal)) :
    Cert.ReferenceIdeal.Glue.agg16 (F := Ideal) e h = Cert.KernelIdeal.Glue.agg16 (F := Ideal) e h := rfl
theorem agg8_same (e : (⟨Cert.KernelIdeal.S2x3200000, .i32⟩ : BufTy).Contents (Elt Ideal))
    (h : (⟨Cert.KernelIdeal.S100000x8, .f32⟩ : BufTy).Contents (Elt Ideal)) :
    Cert.ReferenceIdeal.Glue.agg8 (F := Ideal) e h = Cert.KernelIdeal.Glue.agg8 (F := Ideal) e h := rfl

/-- So the two programs' results are one function of the six arguments. -/
theorem result_same (x : FVec Ideal Cert.KernelIdeal.S100000x128 .f32) (e : (⟨Cert.KernelIdeal.S2x3200000, .i32⟩ : BufTy).Contents (Elt Ideal))
    (w1 : FVec Ideal Cert.KernelIdeal.S128x16 .f32) (b1 : FVec Ideal Cert.KernelIdeal.S16 .f32)
    (w2 : FVec Ideal Cert.KernelIdeal.S16x8 .f32) (b2 : FVec Ideal Cert.KernelIdeal.S8 .f32) :
    Cert.ReferenceIdeal.RefValue.result x e w1 b1 w2 b2 = Cert.KernelIdeal.KernelValue.result x e w1 b1 w2 b2 := by
  unfold Cert.ReferenceIdeal.RefValue.result Cert.KernelIdeal.KernelValue.result
  rw [agg8_same, agg16_same]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefValue.run m ρ)

/-- From memories that agree on the arguments both programs end with the result buffer at the one function of the
    arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  exact result_same _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
